-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S4096x1 : Shape := ⟨2, ![4096, 1]⟩
abbrev S1024x1024 : Shape := ⟨2, ![1024, 1024]⟩
abbrev S1024x1 : Shape := ⟨2, ![1024, 1]⟩
abbrev S1024x128 : Shape := ⟨2, ![1024, 128]⟩
abbrev S1024x8x128 : Shape := ⟨3, ![1024, 8, 128]⟩
abbrev S1024 : Shape := ⟨1, ![1024]⟩
abbrev S4096 : Shape := ⟨1, ![4096]⟩

abbrev nBuf : Space → Nat
  | .hbm => 48
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .f32⟩
  | .hbm, ⟨25, _⟩ => ⟨S2048x1024, .bf16⟩
  | .hbm, ⟨26, _⟩ => ⟨S2048x1024, .bf16⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S4096x1024, .bf16⟩
  | .hbm, ⟨31, _⟩ => ⟨S4096x1024, .bf16⟩
  | .hbm, ⟨32, _⟩ => ⟨S4096x1, .f32⟩
  | .hbm, ⟨33, _⟩ => ⟨S4096, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bitsLt_bf16_f32 : FTy.bits .bf16 < FTy.bits .f32
  concatenates_S2048x1024_S2048x1024_S4096x1024_d0 : Shape.Concatenates [S2048x1024, S2048x1024] S4096x1024 0
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  iota_S1024x1024_d0_w32 : S1024x1024.Iotas .tc 32 [0]
  iota_S1024x1024_d1_w32 : S1024x1024.Iotas .tc 32 [1]
  shapeCasts_S1024x1024_S1024x8x128 : S1024x1024.ShapeCasts S1024x8x128
  reduces_S1024x8x128_S1024x128 : S1024x8x128.Reduces [1] S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  concatenates_S2048_S2048_S4096_d0 : Shape.Concatenates [S2048, S2048] S4096 0
  bcast_S_S4096 : S_.BroadcastsInDim S4096 (![] : Fin 0 → Fin S4096.rank)
  reducesTo_S4096_S_d0 : S4096.ReducesTo [0] S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S1024x4096 : Shape := ⟨2, ![1024, 4096]⟩
abbrev S4096x4096 : Shape := ⟨2, ![4096, 4096]⟩
abbrev S2048x2 : Shape := ⟨2, ![2048, 2]⟩
abbrev S4096 : Shape := ⟨1, ![4096]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S4096x1024, .f32⟩
  | .hbm, ⟨23, _⟩ => ⟨S1024x4096, .f32⟩
  | .hbm, ⟨24, _⟩ => ⟨S4096x4096, .f32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S2048x1, .i32⟩
  | .hbm, ⟨46, _⟩ => ⟨S2048x2, .i32⟩
  | .hbm, ⟨47, _⟩ => ⟨S2048, .f32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S2048x1, .i32⟩
  | .hbm, ⟨68, _⟩ => ⟨S2048x1, .i32⟩
  | .hbm, ⟨69, _⟩ => ⟨S2048x2, .i32⟩
  | .hbm, ⟨70, _⟩ => ⟨S2048, .f32⟩
  | .hbm, ⟨71, _⟩ => ⟨S4096, .f32⟩
  | .hbm, ⟨72, _⟩ => ⟨S4096x4096, .i32⟩
  | .hbm, ⟨73, _⟩ => ⟨S4096x4096, .i32⟩
  | .hbm, ⟨74, _⟩ => ⟨S_, .i32⟩
  | .hbm, ⟨75, _⟩ => ⟨S4096x4096, .i32⟩
  | .hbm, ⟨76, _⟩ => ⟨S4096x4096, .i32⟩
  | .hbm, ⟨77, _⟩ => ⟨S4096x4096, .i1⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_3 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_cst_6 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_7 : Ref sig .tc := ⟨.hbm, 94, rfl⟩
abbrev main_v39 : Ref sig .tc := ⟨.hbm, 95, rfl⟩
abbrev main_cst_8 : Ref sig .tc := ⟨.hbm, 96, rfl⟩
abbrev main_v40 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  concatenates_S2048x1024_S2048x1024_S4096x1024_d0 : Shape.Concatenates [S2048x1024, S2048x1024] S4096x1024 0
  transposes_S4096x1024_S1024x4096_1_0 : S4096x1024.Transposes [1, 0] S1024x4096
  bcast_S_S2048 : S_.BroadcastsInDim S2048 (![] : Fin 0 → Fin S2048.rank)
  concatenates_S2048x1_S2048x1_S2048x2_d1 : Shape.Concatenates [S2048x1, S2048x1] S2048x2 1
  concatenates_S2048_S2048_S4096_d0 : Shape.Concatenates [S2048, S2048] S4096 0
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []
  gather_S4096x4096_S2048x2_S2048_n_01_n_n_01_1_11_wf : GatherDims.WF S4096x4096 S2048x2 S2048 [] [0, 1] [] [0, 1] [] 1 ![1, 1]

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def gather_S4096x4096_S2048x2_S2048_n_01_n_n_01_1_11 : GatherDims S4096x4096 S2048x2 S2048 where
  offsetDims := []
  collapsedSliceDims := [0, 1]
  operandBatchingDims := []
  startIndicesBatchingDims := []
  startIndexMap := [0, 1]
  indexVectorDim := 1
  sliceSizes := ![1, 1]
  wf := gather_S4096x4096_S2048x2_S2048_n_01_n_n_01_1_11_wf

class Facts : Prop extends Facts₀ where

variable [Facts]
-- ==== Proof.BitsFrameShared.lean ====
/-
  What the three control cases of the kernel body share.  The grid is 4 x 4, point t = 4 * i + j.  The body zeroes
  its 1024 x 128 accumulator when j = 0, adds the block's lane sums at every point, and stores the row sums of the
  accumulator into the output block when j = 3.  So a point is in one of three cases: j = 0 (first), j = 1, 2
  (middle), j = 3 (last); the two conditions are decided over the sixteen points.  The row windows (0, 1) and the
  column windows (2, 3) read the same two arrays at different blocks; the output window is written back only at
  the last point of each row of the grid and is idle elsewhere.
-/
import proofs.«170399_j67310727463046_2_alg».proof.Proof.Gen.Kernel.Launch
import proofs.«170399_j67310727463046_2_alg».proof.Proof.Gen.Kernel.Skeleton
import proofs.«170399_j67310727463046_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, the host operations after it: it reduces to the
    region continued by the later operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "j = 0", as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "j = 3". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In the first and middle cases nothing is stored into the output block: the window is idle and not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- In the last case the output block is stored whole. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0_0 : Memref sig .tc .vmem S1024x128 .f32 := Memref.whole cc0_scratch0
abbrev VS0_0 : View sig .tc .vmem S1024x128 .f32 := scM0_0.view

/-- The region's invariant before the first point: the accumulator at some contents, the generator register at some
    state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.HandFrame

end
-- ==== Proof.BitsFrameRunA.lean ====
/-
  The kernel body run once, in the case of the first point of a grid row (j = 0): the accumulator is zeroed, then this block's lane sums are added.  The pieces the body's stores leave in the
  accumulator are found by running the body symbolically; they are the witness of the statement.
-/
import proofs.«170399_j67310727463046_2_alg».proof.Proof.BitsFrameShared

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the four input blocks, the output block at contents handed back untouched, the accumulator
    at anything: the body runs to the continuation with the inputs as they were and the accumulator
    with the found pieces written. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) :
    Σ' (L4 : List (View.Piece (Elt F) S1024x1 .f32)), { LS0 : List (View.Piece (Elt F) S1024x128 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__ntxent_denom_kernel i arg2 harg2 arg3 harg3 arg4 harg4 arg5 harg5 arg6 harg6 arg7 harg7) K } := by
  refine ⟨[], ?_, fun xi4 E K => ?run⟩
  case run =>
    simp only [cc0__ntxent_denom_kernel_eq_skeleton]; unfold cc0__ntxent_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.HandFrame

end
-- ==== Proof.BitsFrameRunB.lean ====
/-
  The kernel body run once, in the case of a middle point (j = 1, 2): this block's lane sums are added to what the point before left.  The pieces the body's stores leave in the
  accumulator are found by running the body symbolically; they are the witness of the statement.
-/
import proofs.«170399_j67310727463046_2_alg».proof.Proof.BitsFrameShared

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the four input blocks, the output block at contents handed back untouched, the accumulator
    at what the point before left: the body runs to the continuation with the inputs as they were and the accumulator
    with the found pieces written. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) :
    Σ' (L4 : List (View.Piece (Elt F) S1024x1 .f32)), { LS0 : List (View.Piece (Elt F) S1024x128 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__ntxent_denom_kernel i arg2 harg2 arg3 harg3 arg4 harg4 arg5 harg5 arg6 harg6 arg7 harg7) K } := by
  refine ⟨[], ?_, fun xi4 E K => ?run⟩
  case run =>
    simp only [cc0__ntxent_denom_kernel_eq_skeleton]; unfold cc0__ntxent_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.HandFrame

end
-- ==== Proof.BitsFrameRunC.lean ====
/-
  The kernel body run once, in the case of the last point of a grid row (j = 3): the lane sums are added and the accumulator's row sums stored into the output block.  The pieces the body's stores leave in the
  accumulator and in the output block are found by running the body symbolically; they are the witness of the statement.
-/
import proofs.«170399_j67310727463046_2_alg».proof.Proof.BitsFrameShared

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the four input blocks, the output block at anything, the accumulator
    at what the point before left: the body runs to the continuation with the inputs as they were and the accumulator and the output block
    with the found pieces written. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) :
    Σ' (L4 : List (View.Piece (Elt F) S1024x1 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__ntxent_denom_kernel i arg2 harg2 arg3 harg3 arg4 harg4 arg5 harg5 arg6 harg6 arg7 harg7) K } := by
  refine ⟨?_, ?_, fun E K => ?run⟩
  case run =>
    simp only [cc0__ntxent_denom_kernel_eq_skeleton]; unfold cc0__ntxent_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.HandFrame

end
-- ==== Proof.BitsFrameMain.lean ====
/-
  What the accumulator and the output block hold after every grid point, the region's proof data, and the body's
  obligation at every point.  After point t the accumulator holds what the point's case leaves in it, computed from
  the point's four input blocks and (except at j = 0) from what the point before left; the output block is stored
  only at j = 3.  The region's invariant carries the accumulator at exactly these contents from point to point.
-/
import proofs.«170399_j67310727463046_2_alg».proof.Proof.BitsFrameRunA
import proofs.«170399_j67310727463046_2_alg».proof.Proof.BitsFrameRunB
import proofs.«170399_j67310727463046_2_alg».proof.Proof.BitsFrameRunC

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output block: no pieces, a placeholder nothing consults. -/
def out0_A_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it. -/
theorem scover0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What case A leaves in the accumulator: its pieces read back. -/
def sout0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block: no pieces, a placeholder nothing consults. -/
def out0_B_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it. -/
theorem scover0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What case B leaves in the accumulator: its pieces read back. -/
def sout0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's pieces for the output block cover it. -/
theorem cover0_C_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What case C leaves in the output block: its pieces read back. -/
def out0_C_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

/-- After the body at position n: the pair (output block, accumulator) the point's case leaves, the accumulator a case
    reads taken from the point before. -/
def outsAt0 (c : Dev nD) : (n : ℕ) → n < cfg0.N → Vec F S1024x1 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulator at anything; afterwards at what
    the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- The halves of the full share: the row window takes the left half of its array, the column window the right. -/
def qOf : Fin cfg0.W → PosShare TreeShare
  | ⟨0, _⟩ => fullShare.left
  | ⟨1, _⟩ => fullShare.left
  | ⟨2, _⟩ => fullShare.right
  | ⟨3, _⟩ => fullShare.right
  | _ => fullShare

/-- The arrays as the region finds them; after the body each input's buffer at its block and the output's at what
    the point's case leaves; the invariant carrying the accumulator; nothing owed; the two windows on one array
    share it by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = (outsAt0 m c t.val t.isLt).1 := by dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' memrefs hold their blocks; the conditions' closed forms say which case the
    point is in; the invariant hands the body the accumulator at what the point before left (at anything at the very
    first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.Kernel.HandFrame

end
-- ==== Proof.BitsFrameLaunch.lean ====
/-
  The region launched and the program run to its end.  Two windows of the region read one array (the row window
  and the column window of the high parts, and likewise of the remainders), so the array's full share is dealt to
  them by halves when the region is entered and put together again when it is left; the arrays' contents are the
  same on both halves because no input is written.  After the region the later host operations run from the
  entry contents with the output array at what the region's write-backs left.
-/
import proofs.«170399_j67310727463046_2_alg».proof.Proof.BitsFrameMain

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows: three buffers for five windows -/

theorem arr_image : (Finset.univ.image (Pipeline.arrRef spec0) : Finset (Ref sig .tc)) = [main_v24, main_v25, main_v26].toFinset := by decide

theorem share_0 (c : Dev nD) : (dats (F := F) m 0 c).share 0 = fullShare.left := rfl
theorem share_1 (c : Dev nD) : (dats (F := F) m 0 c).share 1 = fullShare.left := rfl
theorem share_2 (c : Dev nD) : (dats (F := F) m 0 c).share 2 = fullShare.right := rfl
theorem share_3 (c : Dev nD) : (dats (F := F) m 0 c).share 3 = fullShare.right := rfl
theorem share_4 (c : Dev nD) : (dats (F := F) m 0 c).share 4 = fullShare := rfl

/-- A window's array is a whole buffer: held through the window it is the buffer held. -/
theorem pt_eq (c : Dev nD) (w : Fin cfg0.W) (q : PosShare TreeShare) (f : Buf (Elt F) ((cfg0.win w).arr.view.loc (c : Thread nD τ))) :
    (((cfg0.win w).arr.view.loc (c : Thread nD τ) ↦[(cfg0.win w).arr.view.set]{q} f) : sProp 𝕄)
      = (((c : Thread nD τ).loc (Pipeline.arrRef spec0 w)) ↦{q} f) := by
  rw [(arr_whole0 w).set_eq_univ]

/-- The five windows' arrays at contents Fx, window by window, with the halves spelt out. -/
theorem arrays_eq5 (c : Dev nD) (Fx : (w : Fin cfg0.W) → Buf (Elt F) ((cfg0.win w).arr.view.loc (c : Thread nD τ))) :
    ((dats m 0 c).arrays Fx : sProp 𝕄)
      = iprop((((c : Thread nD τ).loc (Pipeline.arrRef spec0 0)) ↦{fullShare.left} Fx 0) ∗ (((c : Thread nD τ).loc (Pipeline.arrRef spec0 1)) ↦{fullShare.left} Fx 1)
          ∗ (((c : Thread nD τ).loc (Pipeline.arrRef spec0 2)) ↦{fullShare.right} Fx 2) ∗ (((c : Thread nD τ).loc (Pipeline.arrRef spec0 3)) ↦{fullShare.right} Fx 3)
          ∗ (((c : Thread nD τ).loc (Pipeline.arrRef spec0 4)) ↦{fullShare} Fx 4)) := by
  unfold Dat.arrays
  rw [bigSep_W0]
  exact congrArg₂ BI.sep ((pt_eq c 0 _ (Fx 0)).trans (congrArg (fun q => ((((c : Thread nD τ).loc (Pipeline.arrRef spec0 0)) ↦{q} Fx 0) : sProp 𝕄)) (share_0 m c)))
    (congrArg₂ BI.sep ((pt_eq c 1 _ (Fx 1)).trans (congrArg (fun q => ((((c : Thread nD τ).loc (Pipeline.arrRef spec0 1)) ↦{q} Fx 1) : sProp 𝕄)) (share_1 m c)))
    (congrArg₂ BI.sep ((pt_eq c 2 _ (Fx 2)).trans (congrArg (fun q => ((((c : Thread nD τ).loc (Pipeline.arrRef spec0 2)) ↦{q} Fx 2) : sProp 𝕄)) (share_2 m c)))
    (congrArg₂ BI.sep ((pt_eq c 3 _ (Fx 3)).trans (congrArg (fun q => ((((c : Thread nD τ).loc (Pipeline.arrRef spec0 3)) ↦{q} Fx 3) : sProp 𝕄)) (share_3 m c)))
      ((pt_eq c 4 _ (Fx 4)).trans (congrArg (fun q => ((((c : Thread nD τ).loc (Pipeline.arrRef spec0 4)) ↦{q} Fx 4) : sProp 𝕄)) (share_4 m c))))))

/-- The three buffers at contents Vx, one by one. -/
theorem arrBufs_eq3 (c : Dev nD) (Vx : (b : Ref sig .tc) → Buf (Elt F) ((c : Thread nD τ).loc b)) :
    (Pipeline.arrBufs spec0 c Vx : sProp 𝕄)
      = iprop((((c : Thread nD τ).loc main_v24) ↦{fullShare} Vx main_v24) ∗ (((c : Thread nD τ).loc main_v25) ↦{fullShare} Vx main_v25)
          ∗ (((c : Thread nD τ).loc main_v26) ↦{fullShare} Vx main_v26)) := by
  unfold Pipeline.arrBufs
  rw [bigSep_eq_bigSepL_of_eq [main_v24, main_v25, main_v26] arr_image (by decide)]
  rfl

/-- Entering: each shared buffer's full share is dealt to its two windows by halves. -/
theorem arrays_deal (c : Dev nD) (Vx : (b : Ref sig .tc) → Buf (Elt F) ((c : Thread nD τ).loc b))
    (Fx : (w : Fin cfg0.W) → Buf (Elt F) ((cfg0.win w).arr.view.loc (c : Thread nD τ))) (hF : ∀ w, Fx w = Vx (Pipeline.arrRef spec0 w)) :
    (Pipeline.arrBufs spec0 c Vx : sProp 𝕄) ⊢ (dats m 0 c).arrays Fx := by
  rw [arrays_eq5, arrBufs_eq3, hF 0, hF 1, hF 2, hF 3, hF 4]
  iintro ⟨H24, H25, H26⟩
  ihave H24 := (pointsTo_share (PosShare.mem_left_op_right fullShare)).1 $$ H24
  icases H24 with ⟨H24l, H24r⟩
  ihave H25 := (pointsTo_share (PosShare.mem_left_op_right fullShare)).1 $$ H25
  icases H25 with ⟨H25l, H25r⟩
  isplitl [H24l]; · iexact H24l
  isplitl [H25l]; · iexact H25l
  isplitl [H24r]; · iexact H24r
  isplitl [H25r]; · iexact H25r
  iexact H26

/-- Leaving: the halves, at one and the same contents, make the full share again. -/
theorem arrays_gather (c : Dev nD) (Vx : (b : Ref sig .tc) → Buf (Elt F) ((c : Thread nD τ).loc b))
    (Fx : (w : Fin cfg0.W) → Buf (Elt F) ((cfg0.win w).arr.view.loc (c : Thread nD τ))) (hF : ∀ w, Fx w = Vx (Pipeline.arrRef spec0 w)) :
    ((dats m 0 c).arrays Fx : sProp 𝕄) ⊢ Pipeline.arrBufs spec0 c Vx := by
  rw [arrays_eq5, arrBufs_eq3, hF 0, hF 1, hF 2, hF 3, hF 4]
  iintro ⟨H24l, H25l, H24r, H25r, H26⟩
  ihave H24 := (pointsTo_share (PosShare.mem_left_op_right fullShare)).2 $$ [H24l H24r]
  · isplitl [H24l] <;> iassumption
  ihave H25 := (pointsTo_share (PosShare.mem_left_op_right fullShare)).2 $$ [H25l H25r]
  · isplitl [H25l] <;> iassumption
  isplitl [H24]; · iexact H24
  isplitl [H25]; · iexact H25
  iexact H26

/-! ## The contents at the region's exit and at the program's end -/

/-- At the region's exit: the output array at what the write-backs left, every other buffer as at the entry. -/
def Wx (c : Dev nD) : Valuation τ sig (Elt F) :=
  Function.update (V0 m c) (Proc.devRef .tc main_v26) ((dats m 0 c).arrAt 4 cfg0.N)

/-- At the program's end: after the later host operations. -/
def Wend (c : Dev nD) : Valuation τ sig (Elt F) := StableHlo.after hostOps1 (Wx m c)

theorem Wx_v26 (c : Dev nD) : Wx m c (Proc.devRef .tc main_v26) = (dats m 0 c).arrAt 4 cfg0.N := by
  unfold Wx; exact Function.update_self ..

theorem Wx_of_ne (c : Dev nD) (b : Ref sig .tc) (hb : b ≠ main_v26) : Wx m c (Proc.devRef .tc b) = V0 m c (Proc.devRef .tc b) := by
  unfold Wx; exact Function.update_of_ne (fun e => hb (Proc.devRef_injective _ e)) ..

/-- Every window's array at the exit: an input's is its entry contents, the output's what the write-backs left. -/
theorem arrAt_Wx (c : Dev nD) : ∀ w : Fin cfg0.W, (dats m 0 c).arrAt w cfg0.N = Wx m c (Proc.devRef .tc (Pipeline.arrRef spec0 w))
  | ⟨0, _⟩ => ((dats m 0 c).arrAt_in 0 rfl _).trans ((A_eq m c 0).trans (Wx_of_ne m c main_v24 (by decide)).symm)
  | ⟨1, _⟩ => ((dats m 0 c).arrAt_in 1 rfl _).trans ((A_eq m c 1).trans (Wx_of_ne m c main_v25 (by decide)).symm)
  | ⟨2, _⟩ => ((dats m 0 c).arrAt_in 2 rfl _).trans ((A_eq m c 2).trans (Wx_of_ne m c main_v24 (by decide)).symm)
  | ⟨3, _⟩ => ((dats m 0 c).arrAt_in 3 rfl _).trans ((A_eq m c 3).trans (Wx_of_ne m c main_v25 (by decide)).symm)
  | ⟨4, _⟩ => (Wx_v26 m c).symm

/-- No later host operation writes a window's array. -/
theorem hostOps1_keeps : ∀ op ∈ (hostOps1 : List (HloOp τ sig (Elt F))), ∀ w : Fin cfg0.W, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem arrAt_Wend (c : Dev nD) (w : Fin cfg0.W) : (dats m 0 c).arrAt w cfg0.N = Wend m c (Proc.devRef .tc (Pipeline.arrRef spec0 w)) := by
  unfold Wend
  rw [StableHlo.after_of_forall_not_mem _ _ fun op hop => hostOps1_keeps op hop w]
  exact arrAt_Wx m c w

/-- The buffers that bypass the region, at the entry contents and at the program's end. -/
abbrev Zin (c : Dev nD) : sProp 𝕄 := Pipeline.unscopedRest (Ix := Unit) (Name := ℕ) (U := UR sig nD τ) (Lvl := ℕ) spec0 c (V m c)
abbrev Zend (c : Dev nD) : sProp 𝕄 := Pipeline.unscopedRest (Ix := Unit) (Name := ℕ) (U := UR sig nD τ) (Lvl := ℕ) spec0 c (fun b => Wend m c (Proc.devRef .tc b))

/-- The bypassing buffers hold the same at the exit as at the entry. -/
theorem Zin_eq (c : Dev nD) : (Zin m c : sProp 𝕄) = Pipeline.unscopedRest (Ix := Unit) (Name := ℕ) (U := UR sig nD τ) (Lvl := ℕ) spec0 c (fun b => Wx m c (Proc.devRef .tc b)) := by
  unfold Zin Pipeline.unscopedRest
  exact bigSep_congr fun b hb => congrArg (fun f => (((c : Thread nD τ).loc b) ↦{fullShare} f : sProp 𝕄))
    (Wx_of_ne m c b fun e => (Finset.mem_sdiff.mp hb).2 (Finset.mem_image.mpr ⟨4, Finset.mem_univ _, e.symm⟩)).symm

-- rules stated for any thread are applied at the TensorCore thread
set_option backward.isDefEq.respectTransparency.types false in
/-- The later host operations, run from the region's exit: the windows' arrays are gathered into whole buffers, the
    operations run within the unscoped buffers, and the arrays are dealt out again at the same contents. -/
theorem tail_run (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N) ∗ Zin m c)
      ⊢ wp frame (wpE (Pipeline.defs (pcfgs (F := F)) defs₀) (Variants.lift Variants.none) (c.tc : Thread nD τ) none) Set.univ
          (Pipeline.chain [StableHlo.seq hostOps1]) Q' := by
  have hgather : (iprop((dats m 0 c).arrays ((dats m 0 c).arrAt · cfg0.N) ∗ Zin m c) : sProp 𝕄)
      ⊢ StableHlo.held (c.tc : Thread nD τ) (Pipeline.ucRefs τ sig) (Wx m c) := by
    rw [← Pipeline.unscopedBufs_held (Ix := Unit) (Name := ℕ) (U := UR sig nD τ) (Lvl := ℕ) c (Wx m c),
      Pipeline.unscopedBufs_split₀ cfgs 0 winFacts₀0.arr_unscoped c, Zin_eq]
    iintro ⟨Ha, Hz⟩
    isplitl [Ha]
    · iapply (arrays_gather m c (fun b => Wx m c (Proc.devRef .tc b)) _ (arrAt_Wx m c)); iexact Ha
    iexact Hz
  have hdeal : (StableHlo.held (c.tc : Thread nD τ) (Pipeline.ucRefs τ sig) (Wend m c) : sProp 𝕄)
      ⊢ iprop((dats m 0 c).arrays ((dats m 0 c).arrAt · cfg0.N) ∗ Zend m c) := by
    rw [← Pipeline.unscopedBufs_held (Ix := Unit) (Name := ℕ) (U := UR sig nD τ) (Lvl := ℕ) c (Wend m c),
      Pipeline.unscopedBufs_split₀ cfgs 0 winFacts₀0.arr_unscoped c]
    iintro ⟨Ha, Hz⟩
    isplitl [Ha]
    · iapply (arrays_deal m c (fun b => Wend m c (Proc.devRef .tc b)) _ (arrAt_Wend m c)); iexact Ha
    iexact Hz
  iintro ⟨Hk, Hb, Ha, Hz⟩
  ihave Hh := hgather $$ [Ha Hz]
  · isplitl [Ha] <;> iassumption
  iapply (Pipeline.wp_seqs_then (pcfgs (F := F)) defs₀ Variants.none c (Pipeline.ucRefs τ sig) [] [hostOps1]
    (fun ops hops op hop => by
      simp only [List.mem_cons, List.mem_nil_iff, or_false] at hops; subst hops
      exact Pipeline.sub_ucRefs op ((List.forall_iff_forall_mem.mp hostOps1_sub) op hop))
    (fun ops hops op hop => by
      simp only [List.mem_cons, List.mem_nil_iff, or_false] at hops; subst hops
      exact (List.forall_iff_forall_mem.mp hostOps1_fresh) op hop)
    (Wx m c)) $$ [Hb Hh]
  · isplitl [Hb] <;> iassumption
  iintro ⟨Hb, Hh⟩
  rw [Pipeline.chain_nil, wp_pure]
  imodintro
  iapply Hk
  iapply hdeal
  simp only [List.flatten_cons, List.flatten_nil, List.append_nil]
  iexact Hh

/-! ## The run -/

set_option maxHeartbeats 4000000 in
set_option backward.isDefEq.respectTransparency.types false in
/-- From any memory with zero counters every weakly fair execution of the program on the TensorCores ends, nothing
    faulting, with every window's array at what the region's write-backs left and every other unscoped buffer at
    what the later host operations leave. -/
theorem run_main : θ_run defs (onTc (τ := τ) (main (F := F))) (s₀ m ρ)
    (Pipeline.FramePost cfgs (dats m) 0 (fun c b => Wend m c (Proc.devRef .tc b))) := by
  classical
  exact Pipeline.θ_run_region_pf_tail (fun q => (cfgs q).toPCfg (Val := Elt F)) (fun q => (cfgs q).toPCfg_adm) (dats m) ()
    cellOf_inj 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal m c (V m c) _ (fun w => A_eq m c w))
    (hpf := fun _ k => k.elim0)
    (X := fun c => iprop(∃ r, prngReg c r)) (Y := fun c => iprop(∃ r, prngReg c r))
    (Z := fun c => Zin m c) (Z' := fun c => Zend m c)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefs sig spec0, s.mem ((c.tc : Thread nD τ).loc b) = Wend m c (Proc.devRef .tc b))
    (hY := fun c s' => by
      iintro ⟨-, HU, HSI⟩
      unfold Zend Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

end Cert.Kernel.HandFrame

end
-- ==== Proof.BitsFrameClaims.lean ====
/-
  What the run says about the program's arguments and its result: the arguments end as launched (nothing writes
  them), and the result buffer ends at what the later host operations compute from the region's exit contents.
-/
import proofs.«170399_j67310727463046_2_alg».proof.Proof.BitsFrameLaunch

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation and no window writes an argument: the contents at the end walk back to the launch memory. -/
theorem Wend_main_arg0 (c : Dev nD) : Wend m c (Proc.devRef .tc main_arg0) = m ((c : Thread nD τ).loc main_arg0) :=
  calc Wend m c (Proc.devRef .tc main_arg0)
    _ = Wx m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Wx_of_ne m c main_arg0 (by decide)
    _ = m ((c : Dev nD), Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem main_arg0_rest : main_arg0 ∈ Pipeline.restRefs sig spec0 := Pipeline.mem_restRefs_of main_arg0 (by decide) (by decide)

/-- No host operation and no window writes an argument: the contents at the end walk back to the launch memory. -/
theorem Wend_main_arg1 (c : Dev nD) : Wend m c (Proc.devRef .tc main_arg1) = m ((c : Thread nD τ).loc main_arg1) :=
  calc Wend m c (Proc.devRef .tc main_arg1)
    _ = Wx m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Wx_of_ne m c main_arg1 (by decide)
    _ = m ((c : Dev nD), Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem main_arg1_rest : main_arg1 ∈ Pipeline.restRefs sig spec0 := Pipeline.mem_restRefs_of main_arg1 (by decide) (by decide)

theorem main_v37_rest : main_v37 ∈ Pipeline.restRefs sig spec0 := Pipeline.mem_restRefs_of main_v37 (by decide) (by decide)

/-- The frame: every weakly fair execution ends, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 _ main_arg0_rest).trans (Wend_main_arg0 m c), ((h c).2 _ main_arg1_rest).trans (Wend_main_arg1 m c)⟩) (run_main m ρ)

/-- The same run with the result buffer named. -/
theorem run_value : θ_run defs (onTc (τ := τ) (main (F := F))) ⟨m, fun _ => 0, ρ⟩ (fun r => ∀ c : Dev nD,
      r.2.mem ((c.tc : Thread nD τ).loc main_v37) = Wend m c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 _ main_v37_rest, ((h c).2 _ main_arg0_rest).trans (Wend_main_arg0 m c), ((h c).2 _ main_arg1_rest).trans (Wend_main_arg1 m c)⟩) (run_main m ρ)

end Cert.Kernel.HandFrame

end
-- ==== Proof.IdealFrameShared.lean ====
/-
  What the three control cases of the kernel body share.  The grid is 4 x 4, point t = 4 * i + j.  The body zeroes
  its 1024 x 128 accumulator when j = 0, adds the block's lane sums at every point, and stores the row sums of the
  accumulator into the output block when j = 3.  So a point is in one of three cases: j = 0 (first), j = 1, 2
  (middle), j = 3 (last); the two conditions are decided over the sixteen points.  The row windows (0, 1) and the
  column windows (2, 3) read the same two arrays at different blocks; the output window is written back only at
  the last point of each row of the grid and is idle elsewhere.
-/
import proofs.«170399_j67310727463046_2_alg».proof.Proof.Gen.KernelIdeal.Launch
import proofs.«170399_j67310727463046_2_alg».proof.Proof.Gen.KernelIdeal.Skeleton
import proofs.«170399_j67310727463046_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, the host operations after it: it reduces to the
    region continued by the later operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "j = 0", as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "j = 3". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In the first and middle cases nothing is stored into the output block: the window is idle and not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- In the last case the output block is stored whole. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0_0 : Memref sig .tc .vmem S1024x128 .f32 := Memref.whole cc0_scratch0
abbrev VS0_0 : View sig .tc .vmem S1024x128 .f32 := scM0_0.view

/-- The region's invariant before the first point: the accumulator at some contents, the generator register at some
    state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.HandFrame

end
-- ==== Proof.IdealFrameRunA.lean ====
/-
  The kernel body run once, in the case of the first point of a grid row (j = 0): the accumulator is zeroed, then this block's lane sums are added.  The pieces the body's stores leave in the
  accumulator are found by running the body symbolically; they are the witness of the statement.
-/
import proofs.«170399_j67310727463046_2_alg».proof.Proof.IdealFrameShared

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the four input blocks, the output block at contents handed back untouched, the accumulator
    at anything: the body runs to the continuation with the inputs as they were and the accumulator
    with the found pieces written. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) :
    Σ' (L4 : List (View.Piece (Elt F) S1024x1 .f32)), { LS0 : List (View.Piece (Elt F) S1024x128 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__ntxent_denom_kernel i arg2 harg2 arg3 harg3 arg4 harg4 arg5 harg5 arg6 harg6 arg7 harg7) K } := by
  refine ⟨[], ?_, fun xi4 E K => ?run⟩
  case run =>
    simp only [cc0__ntxent_denom_kernel_eq_skeleton]; unfold cc0__ntxent_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.HandFrame

end
-- ==== Proof.IdealFrameRunB.lean ====
/-
  The kernel body run once, in the case of a middle point (j = 1, 2): this block's lane sums are added to what the point before left.  The pieces the body's stores leave in the
  accumulator are found by running the body symbolically; they are the witness of the statement.
-/
import proofs.«170399_j67310727463046_2_alg».proof.Proof.IdealFrameShared

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the four input blocks, the output block at contents handed back untouched, the accumulator
    at what the point before left: the body runs to the continuation with the inputs as they were and the accumulator
    with the found pieces written. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) :
    Σ' (L4 : List (View.Piece (Elt F) S1024x1 .f32)), { LS0 : List (View.Piece (Elt F) S1024x128 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__ntxent_denom_kernel i arg2 harg2 arg3 harg3 arg4 harg4 arg5 harg5 arg6 harg6 arg7 harg7) K } := by
  refine ⟨[], ?_, fun xi4 E K => ?run⟩
  case run =>
    simp only [cc0__ntxent_denom_kernel_eq_skeleton]; unfold cc0__ntxent_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.HandFrame

end
-- ==== Proof.IdealFrameRunC.lean ====
/-
  The kernel body run once, in the case of the last point of a grid row (j = 3): the lane sums are added and the accumulator's row sums stored into the output block.  The pieces the body's stores leave in the
  accumulator and in the output block are found by running the body symbolically; they are the witness of the statement.
-/
import proofs.«170399_j67310727463046_2_alg».proof.Proof.IdealFrameShared

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding the four input blocks, the output block at anything, the accumulator
    at what the point before left: the body runs to the continuation with the inputs as they were and the accumulator and the output block
    with the found pieces written. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) :
    Σ' (L4 : List (View.Piece (Elt F) S1024x1 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__ntxent_denom_kernel i arg2 harg2 arg3 harg3 arg4 harg4 arg5 harg5 arg6 harg6 arg7 harg7) K } := by
  refine ⟨?_, ?_, fun E K => ?run⟩
  case run =>
    simp only [cc0__ntxent_denom_kernel_eq_skeleton]; unfold cc0__ntxent_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.HandFrame

end
-- ==== Proof.IdealFrameMain.lean ====
/-
  What the accumulator and the output block hold after every grid point, the region's proof data, and the body's
  obligation at every point.  After point t the accumulator holds what the point's case leaves in it, computed from
  the point's four input blocks and (except at j = 0) from what the point before left; the output block is stored
  only at j = 3.  The region's invariant carries the accumulator at exactly these contents from point to point.
-/
import proofs.«170399_j67310727463046_2_alg».proof.Proof.IdealFrameRunA
import proofs.«170399_j67310727463046_2_alg».proof.Proof.IdealFrameRunB
import proofs.«170399_j67310727463046_2_alg».proof.Proof.IdealFrameRunC

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output block: no pieces, a placeholder nothing consults. -/
def out0_A_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it. -/
theorem scover0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What case A leaves in the accumulator: its pieces read back. -/
def sout0_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i)
    (x0 : Vec F S1024x1024 .bf16) (x1 : Vec F S1024x1024 .bf16) (x2 : Vec F S1024x1024 .bf16) (x3 : Vec F S1024x1024 .bf16) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block: no pieces, a placeholder nothing consults. -/
def out0_B_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it. -/
theorem scover0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What case B leaves in the accumulator: its pieces read back. -/
def sout0_B_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's pieces for the output block cover it. -/
theorem cover0_C_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What case C leaves in the output block: its pieces read back. -/
def out0_C_4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout0_C_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

/-- After the body at position n: the pair (output block, accumulator) the point's case leaves, the accumulator a case
    reads taken from the point before. -/
def outsAt0 (c : Dev nD) : (n : ℕ) → n < cfg0.N → Vec F S1024x1 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulator at anything; afterwards at what
    the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- The halves of the full share: the row window takes the left half of its array, the column window the right. -/
def qOf : Fin cfg0.W → PosShare TreeShare
  | ⟨0, _⟩ => fullShare.left
  | ⟨1, _⟩ => fullShare.left
  | ⟨2, _⟩ => fullShare.right
  | ⟨3, _⟩ => fullShare.right
  | _ => fullShare

/-- The arrays as the region finds them; after the body each input's buffer at its block and the output's at what
    the point's case leaves; the invariant carrying the accumulator; nothing owed; the two windows on one array
    share it by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = (outsAt0 m c t.val t.isLt).1 := by dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' memrefs hold their blocks; the conditions' closed forms say which case the
    point is in; the invariant hands the body the accumulator at what the point before left (at anything at the very
    first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.KernelIdeal.HandFrame

end
-- ==== Proof.IdealFrameLaunch.lean ====
/-
  The region launched and the program run to its end.  Two windows of the region read one array (the row window
  and the column window of the high parts, and likewise of the remainders), so the array's full share is dealt to
  them by halves when the region is entered and put together again when it is left; the arrays' contents are the
  same on both halves because no input is written.  After the region the later host operations run from the
  entry contents with the output array at what the region's write-backs left.
-/
import proofs.«170399_j67310727463046_2_alg».proof.Proof.IdealFrameMain

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows: three buffers for five windows -/

theorem arr_image : (Finset.univ.image (Pipeline.arrRef spec0) : Finset (Ref sig .tc)) = [main_v24, main_v25, main_v26].toFinset := by decide

theorem share_0 (c : Dev nD) : (dats (F := F) m 0 c).share 0 = fullShare.left := rfl
theorem share_1 (c : Dev nD) : (dats (F := F) m 0 c).share 1 = fullShare.left := rfl
theorem share_2 (c : Dev nD) : (dats (F := F) m 0 c).share 2 = fullShare.right := rfl
theorem share_3 (c : Dev nD) : (dats (F := F) m 0 c).share 3 = fullShare.right := rfl
theorem share_4 (c : Dev nD) : (dats (F := F) m 0 c).share 4 = fullShare := rfl

/-- A window's array is a whole buffer: held through the window it is the buffer held. -/
theorem pt_eq (c : Dev nD) (w : Fin cfg0.W) (q : PosShare TreeShare) (f : Buf (Elt F) ((cfg0.win w).arr.view.loc (c : Thread nD τ))) :
    (((cfg0.win w).arr.view.loc (c : Thread nD τ) ↦[(cfg0.win w).arr.view.set]{q} f) : sProp 𝕄)
      = (((c : Thread nD τ).loc (Pipeline.arrRef spec0 w)) ↦{q} f) := by
  rw [(arr_whole0 w).set_eq_univ]

/-- The five windows' arrays at contents Fx, window by window, with the halves spelt out. -/
theorem arrays_eq5 (c : Dev nD) (Fx : (w : Fin cfg0.W) → Buf (Elt F) ((cfg0.win w).arr.view.loc (c : Thread nD τ))) :
    ((dats m 0 c).arrays Fx : sProp 𝕄)
      = iprop((((c : Thread nD τ).loc (Pipeline.arrRef spec0 0)) ↦{fullShare.left} Fx 0) ∗ (((c : Thread nD τ).loc (Pipeline.arrRef spec0 1)) ↦{fullShare.left} Fx 1)
          ∗ (((c : Thread nD τ).loc (Pipeline.arrRef spec0 2)) ↦{fullShare.right} Fx 2) ∗ (((c : Thread nD τ).loc (Pipeline.arrRef spec0 3)) ↦{fullShare.right} Fx 3)
          ∗ (((c : Thread nD τ).loc (Pipeline.arrRef spec0 4)) ↦{fullShare} Fx 4)) := by
  unfold Dat.arrays
  rw [bigSep_W0]
  exact congrArg₂ BI.sep ((pt_eq c 0 _ (Fx 0)).trans (congrArg (fun q => ((((c : Thread nD τ).loc (Pipeline.arrRef spec0 0)) ↦{q} Fx 0) : sProp 𝕄)) (share_0 m c)))
    (congrArg₂ BI.sep ((pt_eq c 1 _ (Fx 1)).trans (congrArg (fun q => ((((c : Thread nD τ).loc (Pipeline.arrRef spec0 1)) ↦{q} Fx 1) : sProp 𝕄)) (share_1 m c)))
    (congrArg₂ BI.sep ((pt_eq c 2 _ (Fx 2)).trans (congrArg (fun q => ((((c : Thread nD τ).loc (Pipeline.arrRef spec0 2)) ↦{q} Fx 2) : sProp 𝕄)) (share_2 m c)))
    (congrArg₂ BI.sep ((pt_eq c 3 _ (Fx 3)).trans (congrArg (fun q => ((((c : Thread nD τ).loc (Pipeline.arrRef spec0 3)) ↦{q} Fx 3) : sProp 𝕄)) (share_3 m c)))
      ((pt_eq c 4 _ (Fx 4)).trans (congrArg (fun q => ((((c : Thread nD τ).loc (Pipeline.arrRef spec0 4)) ↦{q} Fx 4) : sProp 𝕄)) (share_4 m c))))))

/-- The three buffers at contents Vx, one by one. -/
theorem arrBufs_eq3 (c : Dev nD) (Vx : (b : Ref sig .tc) → Buf (Elt F) ((c : Thread nD τ).loc b)) :
    (Pipeline.arrBufs spec0 c Vx : sProp 𝕄)
      = iprop((((c : Thread nD τ).loc main_v24) ↦{fullShare} Vx main_v24) ∗ (((c : Thread nD τ).loc main_v25) ↦{fullShare} Vx main_v25)
          ∗ (((c : Thread nD τ).loc main_v26) ↦{fullShare} Vx main_v26)) := by
  unfold Pipeline.arrBufs
  rw [bigSep_eq_bigSepL_of_eq [main_v24, main_v25, main_v26] arr_image (by decide)]
  rfl

/-- Entering: each shared buffer's full share is dealt to its two windows by halves. -/
theorem arrays_deal (c : Dev nD) (Vx : (b : Ref sig .tc) → Buf (Elt F) ((c : Thread nD τ).loc b))
    (Fx : (w : Fin cfg0.W) → Buf (Elt F) ((cfg0.win w).arr.view.loc (c : Thread nD τ))) (hF : ∀ w, Fx w = Vx (Pipeline.arrRef spec0 w)) :
    (Pipeline.arrBufs spec0 c Vx : sProp 𝕄) ⊢ (dats m 0 c).arrays Fx := by
  rw [arrays_eq5, arrBufs_eq3, hF 0, hF 1, hF 2, hF 3, hF 4]
  iintro ⟨H24, H25, H26⟩
  ihave H24 := (pointsTo_share (PosShare.mem_left_op_right fullShare)).1 $$ H24
  icases H24 with ⟨H24l, H24r⟩
  ihave H25 := (pointsTo_share (PosShare.mem_left_op_right fullShare)).1 $$ H25
  icases H25 with ⟨H25l, H25r⟩
  isplitl [H24l]; · iexact H24l
  isplitl [H25l]; · iexact H25l
  isplitl [H24r]; · iexact H24r
  isplitl [H25r]; · iexact H25r
  iexact H26

/-- Leaving: the halves, at one and the same contents, make the full share again. -/
theorem arrays_gather (c : Dev nD) (Vx : (b : Ref sig .tc) → Buf (Elt F) ((c : Thread nD τ).loc b))
    (Fx : (w : Fin cfg0.W) → Buf (Elt F) ((cfg0.win w).arr.view.loc (c : Thread nD τ))) (hF : ∀ w, Fx w = Vx (Pipeline.arrRef spec0 w)) :
    ((dats m 0 c).arrays Fx : sProp 𝕄) ⊢ Pipeline.arrBufs spec0 c Vx := by
  rw [arrays_eq5, arrBufs_eq3, hF 0, hF 1, hF 2, hF 3, hF 4]
  iintro ⟨H24l, H25l, H24r, H25r, H26⟩
  ihave H24 := (pointsTo_share (PosShare.mem_left_op_right fullShare)).2 $$ [H24l H24r]
  · isplitl [H24l] <;> iassumption
  ihave H25 := (pointsTo_share (PosShare.mem_left_op_right fullShare)).2 $$ [H25l H25r]
  · isplitl [H25l] <;> iassumption
  isplitl [H24]; · iexact H24
  isplitl [H25]; · iexact H25
  iexact H26

/-! ## The contents at the region's exit and at the program's end -/

/-- At the region's exit: the output array at what the write-backs left, every other buffer as at the entry. -/
def Wx (c : Dev nD) : Valuation τ sig (Elt F) :=
  Function.update (V0 m c) (Proc.devRef .tc main_v26) ((dats m 0 c).arrAt 4 cfg0.N)

/-- At the program's end: after the later host operations. -/
def Wend (c : Dev nD) : Valuation τ sig (Elt F) := StableHlo.after hostOps1 (Wx m c)

theorem Wx_v26 (c : Dev nD) : Wx m c (Proc.devRef .tc main_v26) = (dats m 0 c).arrAt 4 cfg0.N := by
  unfold Wx; exact Function.update_self ..

theorem Wx_of_ne (c : Dev nD) (b : Ref sig .tc) (hb : b ≠ main_v26) : Wx m c (Proc.devRef .tc b) = V0 m c (Proc.devRef .tc b) := by
  unfold Wx; exact Function.update_of_ne (fun e => hb (Proc.devRef_injective _ e)) ..

/-- Every window's array at the exit: an input's is its entry contents, the output's what the write-backs left. -/
theorem arrAt_Wx (c : Dev nD) : ∀ w : Fin cfg0.W, (dats m 0 c).arrAt w cfg0.N = Wx m c (Proc.devRef .tc (Pipeline.arrRef spec0 w))
  | ⟨0, _⟩ => ((dats m 0 c).arrAt_in 0 rfl _).trans ((A_eq m c 0).trans (Wx_of_ne m c main_v24 (by decide)).symm)
  | ⟨1, _⟩ => ((dats m 0 c).arrAt_in 1 rfl _).trans ((A_eq m c 1).trans (Wx_of_ne m c main_v25 (by decide)).symm)
  | ⟨2, _⟩ => ((dats m 0 c).arrAt_in 2 rfl _).trans ((A_eq m c 2).trans (Wx_of_ne m c main_v24 (by decide)).symm)
  | ⟨3, _⟩ => ((dats m 0 c).arrAt_in 3 rfl _).trans ((A_eq m c 3).trans (Wx_of_ne m c main_v25 (by decide)).symm)
  | ⟨4, _⟩ => (Wx_v26 m c).symm

/-- No later host operation writes a window's array. -/
theorem hostOps1_keeps : ∀ op ∈ (hostOps1 : List (HloOp τ sig (Elt F))), ∀ w : Fin cfg0.W, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem arrAt_Wend (c : Dev nD) (w : Fin cfg0.W) : (dats m 0 c).arrAt w cfg0.N = Wend m c (Proc.devRef .tc (Pipeline.arrRef spec0 w)) := by
  unfold Wend
  rw [StableHlo.after_of_forall_not_mem _ _ fun op hop => hostOps1_keeps op hop w]
  exact arrAt_Wx m c w

/-- The buffers that bypass the region, at the entry contents and at the program's end. -/
abbrev Zin (c : Dev nD) : sProp 𝕄 := Pipeline.unscopedRest (Ix := Unit) (Name := ℕ) (U := UR sig nD τ) (Lvl := ℕ) spec0 c (V m c)
abbrev Zend (c : Dev nD) : sProp 𝕄 := Pipeline.unscopedRest (Ix := Unit) (Name := ℕ) (U := UR sig nD τ) (Lvl := ℕ) spec0 c (fun b => Wend m c (Proc.devRef .tc b))

/-- The bypassing buffers hold the same at the exit as at the entry. -/
theorem Zin_eq (c : Dev nD) : (Zin m c : sProp 𝕄) = Pipeline.unscopedRest (Ix := Unit) (Name := ℕ) (U := UR sig nD τ) (Lvl := ℕ) spec0 c (fun b => Wx m c (Proc.devRef .tc b)) := by
  unfold Zin Pipeline.unscopedRest
  exact bigSep_congr fun b hb => congrArg (fun f => (((c : Thread nD τ).loc b) ↦{fullShare} f : sProp 𝕄))
    (Wx_of_ne m c b fun e => (Finset.mem_sdiff.mp hb).2 (Finset.mem_image.mpr ⟨4, Finset.mem_univ _, e.symm⟩)).symm

-- rules stated for any thread are applied at the TensorCore thread
set_option backward.isDefEq.respectTransparency.types false in
/-- The later host operations, run from the region's exit: the windows' arrays are gathered into whole buffers, the
    operations run within the unscoped buffers, and the arrays are dealt out again at the same contents. -/
theorem tail_run (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N) ∗ Zin m c)
      ⊢ wp frame (wpE (Pipeline.defs (pcfgs (F := F)) defs₀) (Variants.lift Variants.none) (c.tc : Thread nD τ) none) Set.univ
          (Pipeline.chain [StableHlo.seq hostOps1]) Q' := by
  have hgather : (iprop((dats m 0 c).arrays ((dats m 0 c).arrAt · cfg0.N) ∗ Zin m c) : sProp 𝕄)
      ⊢ StableHlo.held (c.tc : Thread nD τ) (Pipeline.ucRefs τ sig) (Wx m c) := by
    rw [← Pipeline.unscopedBufs_held (Ix := Unit) (Name := ℕ) (U := UR sig nD τ) (Lvl := ℕ) c (Wx m c),
      Pipeline.unscopedBufs_split₀ cfgs 0 winFacts₀0.arr_unscoped c, Zin_eq]
    iintro ⟨Ha, Hz⟩
    isplitl [Ha]
    · iapply (arrays_gather m c (fun b => Wx m c (Proc.devRef .tc b)) _ (arrAt_Wx m c)); iexact Ha
    iexact Hz
  have hdeal : (StableHlo.held (c.tc : Thread nD τ) (Pipeline.ucRefs τ sig) (Wend m c) : sProp 𝕄)
      ⊢ iprop((dats m 0 c).arrays ((dats m 0 c).arrAt · cfg0.N) ∗ Zend m c) := by
    rw [← Pipeline.unscopedBufs_held (Ix := Unit) (Name := ℕ) (U := UR sig nD τ) (Lvl := ℕ) c (Wend m c),
      Pipeline.unscopedBufs_split₀ cfgs 0 winFacts₀0.arr_unscoped c]
    iintro ⟨Ha, Hz⟩
    isplitl [Ha]
    · iapply (arrays_deal m c (fun b => Wend m c (Proc.devRef .tc b)) _ (arrAt_Wend m c)); iexact Ha
    iexact Hz
  iintro ⟨Hk, Hb, Ha, Hz⟩
  ihave Hh := hgather $$ [Ha Hz]
  · isplitl [Ha] <;> iassumption
  iapply (Pipeline.wp_seqs_then (pcfgs (F := F)) defs₀ Variants.none c (Pipeline.ucRefs τ sig) [] [hostOps1]
    (fun ops hops op hop => by
      simp only [List.mem_cons, List.mem_nil_iff, or_false] at hops; subst hops
      exact Pipeline.sub_ucRefs op ((List.forall_iff_forall_mem.mp hostOps1_sub) op hop))
    (fun ops hops op hop => by
      simp only [List.mem_cons, List.mem_nil_iff, or_false] at hops; subst hops
      exact (List.forall_iff_forall_mem.mp hostOps1_fresh) op hop)
    (Wx m c)) $$ [Hb Hh]
  · isplitl [Hb] <;> iassumption
  iintro ⟨Hb, Hh⟩
  rw [Pipeline.chain_nil, wp_pure]
  imodintro
  iapply Hk
  iapply hdeal
  simp only [List.flatten_cons, List.flatten_nil, List.append_nil]
  iexact Hh

/-! ## The run -/

set_option maxHeartbeats 4000000 in
set_option backward.isDefEq.respectTransparency.types false in
/-- From any memory with zero counters every weakly fair execution of the program on the TensorCores ends, nothing
    faulting, with every window's array at what the region's write-backs left and every other unscoped buffer at
    what the later host operations leave. -/
theorem run_main : θ_run defs (onTc (τ := τ) (main (F := F))) (s₀ m ρ)
    (Pipeline.FramePost cfgs (dats m) 0 (fun c b => Wend m c (Proc.devRef .tc b))) := by
  classical
  exact Pipeline.θ_run_region_pf_tail (fun q => (cfgs q).toPCfg (Val := Elt F)) (fun q => (cfgs q).toPCfg_adm) (dats m) ()
    cellOf_inj 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal m c (V m c) _ (fun w => A_eq m c w))
    (hpf := fun _ k => k.elim0)
    (X := fun c => iprop(∃ r, prngReg c r)) (Y := fun c => iprop(∃ r, prngReg c r))
    (Z := fun c => Zin m c) (Z' := fun c => Zend m c)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefs sig spec0, s.mem ((c.tc : Thread nD τ).loc b) = Wend m c (Proc.devRef .tc b))
    (hY := fun c s' => by
      iintro ⟨-, HU, HSI⟩
      unfold Zend Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

end Cert.KernelIdeal.HandFrame

end
-- ==== Proof.IdealFrameClaims.lean ====
/-
  What the run says about the program's arguments and its result: the arguments end as launched (nothing writes
  them), and the result buffer ends at what the later host operations compute from the region's exit contents.
-/
import proofs.«170399_j67310727463046_2_alg».proof.Proof.IdealFrameLaunch

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation and no window writes an argument: the contents at the end walk back to the launch memory. -/
theorem Wend_main_arg0 (c : Dev nD) : Wend m c (Proc.devRef .tc main_arg0) = m ((c : Thread nD τ).loc main_arg0) :=
  calc Wend m c (Proc.devRef .tc main_arg0)
    _ = Wx m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Wx_of_ne m c main_arg0 (by decide)
    _ = m ((c : Dev nD), Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem main_arg0_rest : main_arg0 ∈ Pipeline.restRefs sig spec0 := Pipeline.mem_restRefs_of main_arg0 (by decide) (by decide)

/-- No host operation and no window writes an argument: the contents at the end walk back to the launch memory. -/
theorem Wend_main_arg1 (c : Dev nD) : Wend m c (Proc.devRef .tc main_arg1) = m ((c : Thread nD τ).loc main_arg1) :=
  calc Wend m c (Proc.devRef .tc main_arg1)
    _ = Wx m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Wx_of_ne m c main_arg1 (by decide)
    _ = m ((c : Dev nD), Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem main_arg1_rest : main_arg1 ∈ Pipeline.restRefs sig spec0 := Pipeline.mem_restRefs_of main_arg1 (by decide) (by decide)

theorem main_v37_rest : main_v37 ∈ Pipeline.restRefs sig spec0 := Pipeline.mem_restRefs_of main_v37 (by decide) (by decide)

/-- The frame: every weakly fair execution ends, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 _ main_arg0_rest).trans (Wend_main_arg0 m c), ((h c).2 _ main_arg1_rest).trans (Wend_main_arg1 m c)⟩) (run_main m ρ)

/-- The same run with the result buffer named. -/
theorem run_value : θ_run defs (onTc (τ := τ) (main (F := F))) ⟨m, fun _ => 0, ρ⟩ (fun r => ∀ c : Dev nD,
      r.2.mem ((c.tc : Thread nD τ).loc main_v37) = Wend m c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 _ main_v37_rest, ((h c).2 _ main_arg0_rest).trans (Wend_main_arg0 m c), ((h c).2 _ main_arg1_rest).trans (Wend_main_arg1 m c)⟩) (run_main m ρ)

end Cert.KernelIdeal.HandFrame

end
-- ==== Proof.Spec.lean ====
/-
  The mathematics of the contrastive loss both programs compute, stated over plain coordinate functions and
  importing no program.

  Inputs are two 2048 x 1024 matrices of extended reals.  A row is scaled to unit length: divided by the larger of
  its Euclidean norm and a small word.  The 4096 x 1024 stack of the two scaled matrices gives the similarity
  matrix S i j = sum_k Z i k * Z j k; row i's denominator sums exp (S i j / temperature) over j ≠ i; row i's positive
  is its similarity with its partner row i ± 2048; the loss is minus the mean of positive / temperature − log
  denominator.

  One program forms the similarity from a high part and a remainder of every entry (three products, the
  remainder-times-remainder one dropped), masks the diagonal by a selection, sums a row's 4096 columns in four
  blocks of 8 x 128 accumulated lane by lane, and multiplies by the reciprocal temperature 2; the other forms it in
  one product, masks by multiplying with 1 − identity, and divides by the temperature 1/2.  At the exact
  instance the remainder is z − z, which vanishes exactly when z is a real number.
-/
import Idealize.ShloMosaic.PureOps.Ideal
import Idealize.ShloMosaic.Lib.ValueIdx

noncomputable section

open scoped BigOperators

namespace Cert.NtXent

open Idealize.ShloMosaic

/-- A matrix by coordinates. -/
abbrev Mat (a b : Nat) : Type := Fin a → Fin b → EReal

/-- A rank-2 array read by coordinates. -/
abbrev mat {a b : Nat} (x : (⟨2, ![a, b]⟩ : Shape).Idx → EReal) : Mat a b := fun r k => x (ValueIdx.ix2 r k)

/-- The float words the programs spell, read exactly. -/
abbrev epsW : EReal := Ideal.ofBits .f32 0x2B8CBCCC#32
abbrev twoW : EReal := Ideal.ofBits .f32 0x40000000#32
abbrev halfW : EReal := Ideal.ofBits .f32 0x3F000000#32
abbrev oneW : EReal := Ideal.ofBits .f32 0x3F800000#32
abbrev nW : EReal := Ideal.ofBits .f32 0x45800000#32

/-- A row's length, kept away from zero. -/
def rowNorm (x : Mat 2048 1024) (r : Fin 2048) : EReal := max (Ideal.sqrt (∑ k : Fin 1024, x r k * x r k)) epsW

/-- The matrix with every row scaled to unit length. -/
def unit (x : Mat 2048 1024) : Mat 2048 1024 := fun r k => Ideal.div (x r k) (rowNorm x r)

/-- What is left of an entry after its high part is taken away; the high part is the entry itself here. -/
def rest (z : Mat 2048 1024) : Mat 2048 1024 := fun r k => z r k - z r k

/-- Two matrices stacked row-wise. -/
def stack (a b : Mat 2048 1024) : Mat 4096 1024 :=
  fun i k => if h : i.val < 2048 then a ⟨i.val, h⟩ k else b ⟨i.val - 2048, by omega⟩ k

/-- Row r's partner similarity, computed from the two scaled matrices directly. -/
def posK (x1 x2 : Mat 2048 1024) (r : Fin 2048) : EReal := ∑ k : Fin 1024, unit x1 r k * unit x2 r k

/-- The similarity from high parts zh and remainders zl: three products, in the order they are added. -/
def simK (zh zl : Mat 4096 1024) (i j : Fin 4096) : EReal :=
  (∑ k : Fin 1024, zh i k * zh j k + ∑ k : Fin 1024, zh i k * zl j k) + ∑ k : Fin 1024, zl i k * zh j k

/-- The masked exponential: nothing on the diagonal. -/
def eK (zh zl : Mat 4096 1024) (i j : Fin 4096) : EReal :=
  if i = j then 0 else Ideal.exp (simK zh zl i j * twoW)

/-- Column jb * 1024 + g * 128 + l. -/
def colOf (jb : Fin 4) (g : Fin 8) (l : Fin 128) : Fin 4096 := ⟨jb.val * 1024 + g.val * 128 + l.val, by omega⟩

/-- Lane l's share of column block jb: the eight groups added. -/
def partK (zh zl : Mat 4096 1024) (i : Fin 4096) (jb : Fin 4) (l : Fin 128) : EReal :=
  ∑ g : Fin 8, eK zh zl i (colOf jb g l)

/-- Lane l's accumulator after the first n column blocks. -/
def accK (zh zl : Mat 4096 1024) (i : Fin 4096) (l : Fin 128) : ℕ → EReal
  | 0 => 0
  | n + 1 => accK zh zl i l n + (if h : n < 4 then partK zh zl i ⟨n, h⟩ l else 0)

/-- Row i's denominator: the 128 lanes added after the four column blocks. -/
def denK (zh zl : Mat 4096 1024) (i : Fin 4096) : EReal := ∑ l : Fin 128, accK zh zl i l 4

/-- Minus the mean of scaled positive minus log denominator. -/
def lossOf (scale : EReal → EReal) (pos den : Fin 4096 → EReal) : EReal :=
  -(Ideal.div (∑ i : Fin 4096, (scale (pos i) - Ideal.log (den i))) nW)

/-- Row i of the stack belongs to row i mod 2048 of a half. -/
def halfRow (i : Fin 4096) : Fin 2048 := ⟨i.val % 2048, Nat.mod_lt _ (by norm_num)⟩

/-- The loss as the three-product program computes it. -/
def lossK (x1 x2 : Mat 2048 1024) : EReal :=
  lossOf (· * twoW) (fun i => posK x1 x2 (halfRow i))
    (denK (stack (unit x1) (unit x2)) (stack (rest (unit x1)) (rest (unit x2))))

/-- The similarity in one product. -/
def simR (Z : Mat 4096 1024) (i j : Fin 4096) : EReal := ∑ k : Fin 1024, Z i k * Z j k

/-- Row i's partner: 2048 rows further, cyclically. -/
def partner (i : Fin 4096) : Fin 4096 := ⟨(i.val + 2048) % 4096, Nat.mod_lt _ (by norm_num)⟩

/-- Row i's denominator with the diagonal multiplied away. -/
def denR (Z : Mat 4096 1024) (i : Fin 4096) : EReal :=
  ∑ j : Fin 4096, (oneW - (if i = j then (1 : EReal) else 0)) * Ideal.exp (Ideal.div (simR Z i j) halfW)

/-- The loss as the one-product program computes it. -/
def lossR (x1 x2 : Mat 2048 1024) : EReal :=
  lossOf (Ideal.div · halfW) (fun i => simR (stack (unit x1) (unit x2)) i (partner i))
    (denR (stack (unit x1) (unit x2)))

end Cert.NtXent

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibUnitLayout.lean ====
/-
  Unit-extent layouts and index words read at coordinates, at any extents.

  A body that reduces a row to one number keeps that number in arrays of extent one — `[1]`, `[1, 1]` — pulls it out
  as a scalar and spreads it again; and it marks the diagonal of a square array by comparing two index arrays. None of
  this computes anything; the lemmas say which entry or which word each result holds:
    • a `[1, 1, n]` array cast to `[n]`: entry `k` is entry `(0, 0, k)`;
    • every index of a `[1, 1]` array is `(0, 0)`, so the scalar extracted at position `(0, 0)` from a `[1]`
      vector recast as `[1, 1]` is the vector's one entry;
    • a `[1]` vector spread to `[n]`: every entry is its one entry;
    • the index array along axis `0` (axis `1`) of an `[a, b]` array holds at `(i, j)` the word of `i` (of `j`);
    • for `i, j` below `2³²`, the "not equal" bit of their two words, widened to 32 bits and read as a signed
      number, is `0` when `i = j` and `1` otherwise; the "equal" bit read as an unsigned number is the opposite.
-/
import Idealize.ShloMosaic.Lib.ValueLayout
import Idealize.ShloMosaic.Lib.Pipeline.Value
import Idealize.ShloMosaic.PureOps.Ideal.Laws

namespace Cert.UnitLayout

open Idealize.ShloMosaic Idealize.ShloMosaic.ValueIdx

variable {α : Type}

/-- A `[1, 1, n]` array cast to `[n]` reads, at `k`, the operand at `(0, 0, k)`. -/
theorem shapeCast_11n_n_apply {n : ℕ} (x : (⟨3, ![1, 1, n]⟩ : Shape).Idx → α)
    (h : (⟨3, ![1, 1, n]⟩ : Shape).ShapeCasts ⟨1, ![n]⟩) (k : Fin n) :
    shapeCast ⟨1, ![n]⟩ x h (ix1 k) = x (ix3 (0 : Fin 1) (0 : Fin 1) k) :=
  shapeCast_apply x h _ _ (by
    rw [Shape.rowMajor_val_three, Shape.rowMajor_val_one]
    show (0 * 1 + 0) * n + k.val = k.val
    simp)

/-- Every index of a `[1, 1]` array is `(0, 0)`. -/
theorem idx11_eq (j : (⟨2, ![1, 1]⟩ : Shape).Idx) : j = ix2 (0 : Fin 1) (0 : Fin 1) := by
  have h0 : (j 0).val = 0 := Nat.lt_one_iff.mp (j 0).isLt
  have h1 : (j 1).val = 0 := Nat.lt_one_iff.mp (j 1).isLt
  funext d
  match d with
  | ⟨0, _⟩ => exact Fin.ext h0
  | ⟨1, _⟩ => exact Fin.ext h1

/-- The scalar extracted at position `(0, 0)` of a `[1]` vector recast as `[1, 1]` is the vector's one entry. -/
theorem extract_one_apply (v : (⟨1, ![1]⟩ : Shape).Idx → α) (h : (⟨1, ![1]⟩ : Shape).ShapeCasts ⟨2, ![1, 1]⟩)
    (hp : ∀ a, (![0, 0] : Fin 2 → ℕ) a < (⟨2, ![1, 1]⟩ : Shape).size a) :
    extractAt ![0, 0] (shapeCast ⟨2, ![1, 1]⟩ v h) hp = v (ix1 (0 : Fin 1)) := by
  unfold extractAt
  exact (congrArg (shapeCast ⟨2, ![1, 1]⟩ v h) (idx11_eq _)).trans (shapeCast_a_1a_apply v h 0 0)

/-- A `[1]` vector spread to `[n]` reads, at every `k`, its one entry. -/
theorem broadcastTo_1_n_apply {n : ℕ} (v : (⟨1, ![1]⟩ : Shape).Idx → α) (h : (⟨1, ![1]⟩ : Shape).Broadcasts ⟨1, ![n]⟩)
    (k : Fin n) : broadcastTo ⟨1, ![n]⟩ v h (ix1 k) = v (ix1 (0 : Fin 1)) := by
  refine broadcastTo_apply v h (ix1 k) (ix1 (0 : Fin 1)) fun ax => ?_
  match ax with
  | ⟨0, _⟩ => rfl

/-- The index array along axis `0` of an `[a, b]` array holds, at `(i, j)`, the word of `i`. -/
theorem iota_rows_apply {κ : Kind} {a b : ℕ} (h : (⟨2, ![a, b]⟩ : Shape).Iotas κ 32 [0]) (i : Fin a) (j : Fin b) :
    iota κ ⟨2, ![a, b]⟩ 32 [0] h (ix2 i j) = BitVec.ofNat 32 i.val := by
  unfold iota
  show BitVec.ofNat 32 (0 * a + i.val) = _
  rw [Nat.zero_mul, Nat.zero_add]

/-- The index array along axis `1` of an `[a, b]` array holds, at `(i, j)`, the word of `j`. -/
theorem iota_cols_apply {κ : Kind} {a b : ℕ} (h : (⟨2, ![a, b]⟩ : Shape).Iotas κ 32 [1]) (i : Fin a) (j : Fin b) :
    iota κ ⟨2, ![a, b]⟩ 32 [1] h (ix2 i j) = BitVec.ofNat 32 j.val := by
  unfold iota
  show BitVec.ofNat 32 (0 * b + j.val) = _
  rw [Nat.zero_mul, Nat.zero_add]

/-- Two numbers below `2³²` have the same 32-bit word only if they are equal. -/
theorem ofNat_inj {p q : ℕ} (hp : p < 4294967296) (hq : q < 4294967296) :
    BitVec.ofNat 32 p = BitVec.ofNat 32 q ↔ p = q := by
  constructor
  · intro e
    have := congrArg BitVec.toNat e
    simp only [BitVec.toNat_ofNat] at this
    rw [Nat.mod_eq_of_lt (by simpa using hp), Nat.mod_eq_of_lt (by simpa using hq)] at this
    exact this
  · rintro rfl; rfl

/-- The "not equal" bit of the words of `i` and `j`, widened to 32 bits and read as a signed number: `0` on the
    diagonal, `1` off it. -/
theorem ne_word_apply {n : ℕ} (hn : n ≤ 4294967296) (i j : Fin n) :
    FloatOps.sitofp (F := Ideal) .f32 ((IntOp.cmpi .ne (BitVec.ofNat 32 i.val) (BitVec.ofNat 32 j.val)).setWidth 32)
      = if i = j then (0 : EReal) else 1 := by
  have hi : i.val < 4294967296 := lt_of_lt_of_le i.isLt hn
  have hj : j.val < 4294967296 := lt_of_lt_of_le j.isLt hn
  by_cases e : i = j
  · subst e
    rw [if_pos rfl]
    show (((BitVec.ofBool (BitVec.ofNat 32 i.val != BitVec.ofNat 32 i.val)).setWidth 32).toInt : ℝ) = (0 : EReal)
    simp
  · rw [if_neg e]
    have hne : BitVec.ofNat 32 i.val ≠ BitVec.ofNat 32 j.val := fun h => e (Fin.ext ((ofNat_inj hi hj).mp h))
    show (((BitVec.ofBool (BitVec.ofNat 32 i.val != BitVec.ofNat 32 j.val)).setWidth 32).toInt : ℝ) = (1 : EReal)
    have : (BitVec.ofNat 32 i.val != BitVec.ofNat 32 j.val) = true := by simpa using hne
    rw [this]
    simp

end Cert.UnitLayout
-- ==== Proof.PayloadValue.lean ====
/-
  The three values the kernel body stores, read at an index, on the extended reals.

  * The accumulator's first value is the zero array.
  * The row total stored at the last column block is, at row r, the sum of the accumulator's 128 lanes of that row.
  * The accumulator's next value at row r, lane l is its old value there plus, over the eight lane groups g, the
    masked exponential of column g * 128 + l: nothing where the global row index equals the global column index,
    else the exponential of twice the similarity; the similarity is three matrix products — high by high, high by
    remainder, remainder by high — added in that order, each a row of the left factor against a row of the right
    one (the right factor is transposed before a plain product).

  The file reads each operation at one index: a plain product into the zero matrix is a sum over the contraction
  coordinate, a transpose exchanges the coordinates, the index arrays hold the words of the coordinates, a comparison
  of two words of numbers below 2^32 compares the numbers, a selection on the comparison's bit is the choice, the cast
  of a 1024-wide row to 8 x 128 reads column g * 128 + l at (g, l), and a sum along the middle axis is the sum over g.
-/
import proofs.«170399_j67310727463046_2_alg».proof.Proof.Gen.KernelIdeal.Skeleton
import proofs.«170399_j67310727463046_2_alg».proof.Proof.Spec
import proofs.«170399_j67310727463046_2_alg».proof.Proof.LibPlainMatmul
import proofs.«170399_j67310727463046_2_alg».proof.Proof.LibOuterLayout
import proofs.«170399_j67310727463046_2_alg».proof.Proof.LibColumnLayout
import proofs.«170399_j67310727463046_2_alg».proof.Proof.LibUnitLayout

noncomputable section

open scoped BigOperators

namespace Cert.KernelIdeal.PayloadValue

open Cert.KernelIdeal Cert.KernelIdeal.Gen Idealize.ShloMosaic Idealize.ShloMosaic.ValueIdx Cert.NtXent

/-- Column g * 128 + l of a 1024-wide row. -/
def col (g : Fin 8) (l : Fin 128) : Fin 1024 := ⟨g.val * 128 + l.val, by omega⟩

/-! ## The layout and word facts -/

/-- The trailing axis split in two: an [a, m] array cast to [a, b, n], m = b * n, reads, at (r, s, k), the operand at
    (r, j) with j = s * n + k: the two indices have the same row-major position. -/
theorem shapeCast_am_abn_apply {α : Type} {a b n m : ℕ} (x : (⟨2, ![a, m]⟩ : Shape).Idx → α)
    (h : (⟨2, ![a, m]⟩ : Shape).ShapeCasts ⟨3, ![a, b, n]⟩) (hm : m = b * n) (r : Fin a) (s : Fin b) (k : Fin n)
    (j : Fin m) (hj : j.val = s.val * n + k.val) :
    shapeCast ⟨3, ![a, b, n]⟩ x h (ix3 r s k) = x (ix2 r j) :=
  shapeCast_apply x h _ _ (by
    rw [Shape.rowMajor_val_two, Shape.rowMajor_val_three]
    show r.val * m + j.val = (r.val * b + s.val) * n + k.val
    rw [hj, hm]; ring)

/-- The word of p * 1024 + q, built as the kernel builds it: the word of p times the word of 1024, plus the word of q. -/
theorem word_eq (p q : ℕ) :
    IntOp.addi (Scalar.muli (BitVec.ofNat 32 p) 1024#32) (BitVec.ofNat 32 q) = BitVec.ofNat 32 (p * 1024 + q) := by
  show BitVec.ofNat 32 p * BitVec.ofNat 32 1024 + BitVec.ofNat 32 q = _
  rw [BitVec.ofNat_mul_ofNat, BitVec.ofNat_add_ofNat]

/-- A selection on the "equal" bit of two such words, for block numbers below 4 and offsets below 1024, is the choice
    on the equality of the numbers: both are below 2^32, where a number is determined by its word. -/
theorem select_eq_words {α : Type} (p p' q q' : ℕ) (hp : p < 4) (hp' : p' < 4) (hq : q < 1024) (hq' : q' < 1024) (A B : α) :
    Scalar.select (IntOp.cmpi .eq (IntOp.addi (Scalar.muli (BitVec.ofNat 32 p) 1024#32) (BitVec.ofNat 32 q))
        (IntOp.addi (Scalar.muli (BitVec.ofNat 32 p') 1024#32) (BitVec.ofNat 32 q'))) A B
      = if p * 1024 + q = p' * 1024 + q' then A else B := by
  rw [word_eq, word_eq]
  show (if BitVec.ofBool (BitVec.ofNat 32 (p * 1024 + q) == BitVec.ofNat 32 (p' * 1024 + q')) = 1#1 then A else B) = _
  by_cases e : p * 1024 + q = p' * 1024 + q'
  · have hb : BitVec.ofBool (BitVec.ofNat 32 (p * 1024 + q) == BitVec.ofNat 32 (p' * 1024 + q')) = 1#1 := by
      rw [e]; simp
    rw [if_pos e, if_pos hb]
  · have hne : BitVec.ofNat 32 (p * 1024 + q) ≠ BitVec.ofNat 32 (p' * 1024 + q') := fun h =>
      e ((Cert.UnitLayout.ofNat_inj (by omega) (by omega)).mp h)
    have hf : (BitVec.ofNat 32 (p * 1024 + q) == BitVec.ofNat 32 (p' * 1024 + q')) = false :=
      beq_eq_false_iff_ne.mpr hne
    have hb : ¬BitVec.ofBool (BitVec.ofNat 32 (p * 1024 + q) == BitVec.ofNat 32 (p' * 1024 + q')) = 1#1 := by
      rw [hf]; decide
    rw [if_neg e, if_neg hb]

/-! ## The operations of the body at an index -/

/-- A product of a matrix with the transpose of another, into the zero matrix: entry (r, c) is row r of the first
    against row c of the second. -/
theorem prod_apply (A B : FVec Ideal S1024x1024 .bf16) (r c : Fin 1024) :
    matmul dot_S1024x1024_S1024x1024_S1024x1024_1_0_0_1_n_n none
        (shapeCast S1024x1024 A shapeCasts_S1024x1024_S1024x1024)
        (transpose S1024x1024 [1, 0] (shapeCast S1024x1024 B shapeCasts_S1024x1024_S1024x1024)
          transposes_S1024x1024_p1_0_S1024x1024)
        (constant S1024x1024 .f32 0x00000000#32) (ix2 r c)
      = ∑ k : Fin 1024, A (ix2 r k) * B (ix2 c k) := by
  rw [shapeCast_self, shapeCast_self]
  refine (Cert.PlainMatmul.plain_apply (M := 1024) (K := 1024) (N := 1024) A
    (transpose S1024x1024 [1, 0] B transposes_S1024x1024_p1_0_S1024x1024) r c).trans ?_
  exact Finset.sum_congr rfl fun k _ =>
    congrArg (A (ix2 r k) * ·) (transpose_ix2_apply B transposes_S1024x1024_p1_0_S1024x1024 k c)

/-- The masked exponential of an entry: zero where the global row index equals the global column index, else the
    exponential of twice the entry. -/
theorem entry_apply (i : grid0.Coords) (S : FVec Ideal S1024x1024 .f32) (r c : Fin 1024) :
    select (cmpi .eq
        (addi (broadcast S1024x1024 (Scalar.muli (BitVec.ofNat 32 (i 0).val) 1024#32))
          (iota .tc S1024x1024 32 [0] iota_S1024x1024_d0_w32))
        (addi (broadcast S1024x1024 (Scalar.muli (BitVec.ofNat 32 (i 1).val) 1024#32))
          (iota .tc S1024x1024 32 [1] iota_S1024x1024_d1_w32)))
      (broadcast S1024x1024 (Scalar.ofBits (F := Ideal) .f32 0x00000000#32))
      (exp (mulf S (broadcast S1024x1024 (Scalar.ofBits (F := Ideal) .f32 0x40000000#32)))) (ix2 r c)
      = if (i 0).val * 1024 + r.val = (i 1).val * 1024 + c.val then (0 : EReal) else Ideal.exp (S (ix2 r c) * twoW) := by
  have h0 : (i 0).val < 4 := (i 0).isLt
  have h1 : (i 1).val < 4 := (i 1).isLt
  show Scalar.select (IntOp.cmpi .eq
        (IntOp.addi (Scalar.muli (BitVec.ofNat 32 (i 0).val) 1024#32) (iota .tc S1024x1024 32 [0] iota_S1024x1024_d0_w32 (ix2 r c)))
        (IntOp.addi (Scalar.muli (BitVec.ofNat 32 (i 1).val) 1024#32) (iota .tc S1024x1024 32 [1] iota_S1024x1024_d1_w32 (ix2 r c))))
      (Ideal.ofBits .f32 0x00000000#32) (Ideal.exp (S (ix2 r c) * Ideal.ofBits .f32 0x40000000#32)) = _
  rw [Cert.UnitLayout.iota_rows_apply, Cert.UnitLayout.iota_cols_apply,
    select_eq_words _ _ _ _ h0 h1 r.isLt c.isLt, Ideal.ofBits_zero_f32]

/-! ## The three stored values -/

/-- The accumulator's first value: zero everywhere. -/
theorem pay3_apply (y : S1024x128.Idx) : k0_pay3 (F := Ideal) y = 0 := by
  unfold k0_pay3
  exact Ideal.ofBits_zero_f32

/-- The row total: the 128 lanes of row r added. -/
theorem pay2_apply (v43 : Vec Ideal S1024x128 .f32) (r : Fin 1024) :
    k0_pay2 (F := Ideal) v43 (ix2 r 0) = ∑ l : Fin 128, v43 (ix2 r l) := by
  unfold k0_pay2
  refine (Cert.ColumnLayout.shapeCast_a_a1_apply _ shapeCasts_S1024_S1024x1 r 0).trans ?_
  exact Cert.ColumnLayout.rowSum_apply v43 reduces_S1024x128_S1024 (.inl rfl) rfl r

/-- The accumulator's next value at row r, lane l. -/
theorem pay4_apply (i : grid0.Coords) (v3 v5 v7 v9 : Vec Ideal S1024x1024 .bf16) (v35 : Vec Ideal S1024x128 .f32)
    (r : Fin 1024) (l : Fin 128) :
    k0_pay4 (F := Ideal) i v3 v5 v7 v9 v35 (ix2 r l)
      = v35 (ix2 r l) + ∑ g : Fin 8,
          (if (i 0).val * 1024 + r.val = (i 1).val * 1024 + (g.val * 128 + l.val) then (0 : EReal)
           else Ideal.exp (((∑ k : Fin 1024, v3 (ix2 r k) * v7 (ix2 (col g l) k)
                  + ∑ k : Fin 1024, v3 (ix2 r k) * v9 (ix2 (col g l) k))
                  + ∑ k : Fin 1024, v5 (ix2 r k) * v7 (ix2 (col g l) k)) * twoW)) := by
  unfold k0_pay4
  refine congrArg (v35 (ix2 r l) + ·) ?_
  refine (Cert.OuterLayout.sumMiddle_apply _ reduces_S1024x8x128_S1024x128 (.inl rfl) rfl r l).trans ?_
  refine Finset.sum_congr rfl fun g _ => ?_
  refine (shapeCast_am_abn_apply _ shapeCasts_S1024x1024_S1024x8x128 rfl r g l (col g l) rfl).trans ?_
  refine (entry_apply i _ r (col g l)).trans ?_
  show (if (i 0).val * 1024 + r.val = (i 1).val * 1024 + (g.val * 128 + l.val) then (0 : EReal) else _) = _
  refine congrArg (fun t => if (i 0).val * 1024 + r.val = (i 1).val * 1024 + (g.val * 128 + l.val) then (0 : EReal)
    else Ideal.exp (t * twoW)) ?_
  show (matmul _ none _ _ _ (ix2 r (col g l)) + matmul _ none _ _ _ (ix2 r (col g l))) + matmul _ none _ _ _ (ix2 r (col g l)) = _
  rw [prod_apply, prod_apply, prod_apply]

end Cert.KernelIdeal.PayloadValue

end
-- ==== Proof.IdealDen.lean ====
/-
  The denominators the kernel leaves in its output array, read off the region's proof data.

  The grid is 4 x 4; point t = 4 * ib + jb reads rows ib * 1024 … of the two stacked arrays (high parts and
  remainders) as left factors and rows jb * 1024 … as right factors.  The body keeps a 1024 x 128 accumulator: zeroed
  at jb = 0, it gains at every point, for row r and lane l, the eight masked exponentials of columns
  jb * 1024 + g * 128 + l; at jb = 3 the 128 lanes of every row are added and stored into the output block, which is
  written back as rows ib * 1024 … of the 4096 x 1 output array.  So after the region row i of the output array is
  the denominator of row i: by induction on the point for the accumulator, then block by block for the array.
-/
import proofs.«170399_j67310727463046_2_alg».proof.Proof.IdealFrameMain
import proofs.«170399_j67310727463046_2_alg».proof.Proof.PayloadValue
import proofs.«170399_j67310727463046_2_alg».proof.Proof.Spec
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.DenValue

open Cert.KernelIdeal Cert.KernelIdeal.Gen Cert.KernelIdeal.HandFrame Cert.KernelIdeal.PayloadValue
open Idealize.ShloMosaic.ValueIdx Cert.NtXent

/-! ## What each case of the body leaves -/

section Pieces
variable {F : FTy → Type} [FloatOps F]

theorem hz : (![0, 0] : Fin 2 → Nat) = fun _ => 0 := funext fun a => by fin_cases a <;> rfl

/-- The first point of a grid row zeroes the accumulator, reads the zero block back and adds the block's lane sums. -/
theorem sout_A (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1 .f32) (h6 : a6.IsWhole)
    (a7 : Memref sig .tc .vmem S1024x128 .f32) (h7 : a7.IsWhole) (hc0 : cond0_0 i) (hc1 : ¬cond0_1 i)
    (x0 x1 x2 x3 : Vec F S1024x1024 .bf16) :
    sout0_A_0 c i a2 h2 a3 h3 a4 h4 a5 h5 a6 h6 a7 h7 hc0 hc1 x0 x1 x2 x3 = k0_pay1 (k0_pay4 i x0 x1 x2 x3 k0_pay3) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, h2.read_unread, h3.read_unread, h4.read_unread, h5.read_unread,
    View.ld_unit_zero (S := S1024x1024) hz]

/-- A middle point leaves in the accumulator the old contents plus the block's lane sums. -/
theorem sout_B (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1 .f32) (h6 : a6.IsWhole)
    (a7 : Memref sig .tc .vmem S1024x128 .f32) (h7 : a7.IsWhole) (hc0 : ¬cond0_0 i) (hc1 : ¬cond0_1 i)
    (x0 x1 x2 x3 : Vec F S1024x1024 .bf16) (xs0 : Vec F S1024x128 .f32) :
    sout0_B_0 c i a2 h2 a3 h3 a4 h4 a5 h5 a6 h6 a7 h7 hc0 hc1 x0 x1 x2 x3 xs0 = k0_pay1 (k0_pay4 i x0 x1 x2 x3 xs0) := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S1024x1024) hz, View.ld_unit_zero (S := S1024x128) hz]

/-- The last point of a grid row leaves the same in the accumulator … -/
theorem sout_C (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1 .f32) (h6 : a6.IsWhole)
    (a7 : Memref sig .tc .vmem S1024x128 .f32) (h7 : a7.IsWhole) (hc0 : ¬cond0_0 i) (hc1 : cond0_1 i)
    (x0 x1 x2 x3 : Vec F S1024x1024 .bf16) (xs0 : Vec F S1024x128 .f32) :
    sout0_C_0 c i a2 h2 a3 h3 a4 h4 a5 h5 a6 h6 a7 h7 hc0 hc1 x0 x1 x2 x3 xs0 = k0_pay1 (k0_pay4 i x0 x1 x2 x3 xs0) := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S1024x1024) hz, View.ld_unit_zero (S := S1024x128) hz]

/-- … and stores the row sums of that accumulator, read back, into the output block. -/
theorem out_C (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1 .f32) (h6 : a6.IsWhole)
    (a7 : Memref sig .tc .vmem S1024x128 .f32) (h7 : a7.IsWhole) (hc0 : ¬cond0_0 i) (hc1 : cond0_1 i)
    (x0 x1 x2 x3 : Vec F S1024x1024 .bf16) (xs0 : Vec F S1024x128 .f32) :
    out0_C_4 c i a2 h2 a3 h3 a4 h4 a5 h5 a6 h6 a7 h7 hc0 hc1 x0 x1 x2 x3 xs0 = k0_pay2 (k0_pay1 (k0_pay4 i x0 x1 x2 x3 xs0)) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S1024x128) _ hz]
  simp only [View.readAt_eq_ld, h2.read_unread, h3.read_unread, h4.read_unread, h5.read_unread, h7.read_unread,
    View.ld_unit_zero (S := S1024x1024) hz, View.ld_unit_zero (S := S1024x128) hz]

/-- The store into the accumulator casts to the shape it already has. -/
theorem pay1_eq (v : FVec F S1024x128 .f32) : k0_pay1 v = v := by
  unfold k0_pay1
  exact shapeCast_self v _

end Pieces

/-! ## The blocks the body reads, and the point's place on the grid -/

/-- Row r of row block b of a 4096-row array. -/
def row (b : Fin 4) (r : Fin 1024) : Fin 4096 := ⟨b.val * 1024 + r.val, by omega⟩

/-- Column (g, l) of column block jb is row g * 128 + l of row block jb of the stacked array. -/
theorem row_col (jb : Fin 4) (g : Fin 8) (l : Fin 128) : row jb (col g l) = colOf jb g l :=
  Fin.ext (show jb.val * 1024 + (g.val * 128 + l.val) = jb.val * 1024 + g.val * 128 + l.val by omega)

/-- Point t = 4 * ib + jb of the 4 x 4 grid: its row block … -/
def ibT (t : Fin cfg0.N) : Fin 4 := ⟨t.val / 4, by have := t.isLt; have hN : cfg0.N = 16 := N_0; omega⟩
/-- … and its column block. -/
def jbT (t : Fin cfg0.N) : Fin 4 := ⟨t.val % 4, Nat.mod_lt _ (by norm_num)⟩

/-- The printed index maps and grid coordinates, decided over the sixteen points: the row windows and the output window
    are at block t / 4, the column windows at block t % 4. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val % 4 ∧ win0_2.index t (1 : Fin 2) = 0
    ∧ win0_3.index t (0 : Fin 2) = t.val % 4 ∧ win0_3.index t (1 : Fin 2) = 0
    ∧ win0_4.index t (0 : Fin 2) = t.val / 4 ∧ win0_4.index t (1 : Fin 2) = 0
    ∧ (grid0.coords t 0).val = t.val / 4 ∧ (grid0.coords t 1).val = t.val % 4 :=
  (by decide +kernel : ∀ t : Fin grid0.N, _)

section Blocks
variable {F : FTy → Type} [FloatOps F]
variable (m : (ℓ : Loc nD τ sig) → Buf (Elt F) ℓ)

/-- The first row window's block at point t is rows (t / 4) * 1024 … of the first stacked array. -/
theorem iblk0_apply (c : Dev nD) (t : Fin cfg0.N) (r k : Fin 1024) :
    (iblk m c 0 t : Vec F S1024x1024 .bf16) (ix2 r k) = V m c main_v24 (ix2 (row (ibT t) r) k) := by
  obtain ⟨e0, e1, -⟩ := idx_facts t
  unfold iblk
  rw [View.read_apply]
  show V m c main_v24 _ = V m c main_v24 _
  refine congrArg (V m c main_v24) (funext fun a => Fin.ext ?_)
  match a with
  | ⟨0, _⟩ => show win0_0.index t (0 : Fin 2) * 1024 + 1 * r.val = t.val / 4 * 1024 + r.val; rw [e0]; omega
  | ⟨1, _⟩ => show win0_0.index t (1 : Fin 2) * 1024 + 1 * k.val = k.val; rw [e1]; omega

/-- The second row window's block: the same rows of the second stacked array. -/
theorem iblk1_apply (c : Dev nD) (t : Fin cfg0.N) (r k : Fin 1024) :
    (iblk m c 1 t : Vec F S1024x1024 .bf16) (ix2 r k) = V m c main_v25 (ix2 (row (ibT t) r) k) := by
  obtain ⟨-, -, e0, e1, -⟩ := idx_facts t
  unfold iblk
  rw [View.read_apply]
  show V m c main_v25 _ = V m c main_v25 _
  refine congrArg (V m c main_v25) (funext fun a => Fin.ext ?_)
  match a with
  | ⟨0, _⟩ => show win0_1.index t (0 : Fin 2) * 1024 + 1 * r.val = t.val / 4 * 1024 + r.val; rw [e0]; omega
  | ⟨1, _⟩ => show win0_1.index t (1 : Fin 2) * 1024 + 1 * k.val = k.val; rw [e1]; omega

/-- The first column window's block at point t is rows (t % 4) * 1024 … of the first stacked array. -/
theorem iblk2_apply (c : Dev nD) (t : Fin cfg0.N) (r k : Fin 1024) :
    (iblk m c 2 t : Vec F S1024x1024 .bf16) (ix2 r k) = V m c main_v24 (ix2 (row (jbT t) r) k) := by
  obtain ⟨-, -, -, -, e0, e1, -⟩ := idx_facts t
  unfold iblk
  rw [View.read_apply]
  show V m c main_v24 _ = V m c main_v24 _
  refine congrArg (V m c main_v24) (funext fun a => Fin.ext ?_)
  match a with
  | ⟨0, _⟩ => show win0_2.index t (0 : Fin 2) * 1024 + 1 * r.val = t.val % 4 * 1024 + r.val; rw [e0]; omega
  | ⟨1, _⟩ => show win0_2.index t (1 : Fin 2) * 1024 + 1 * k.val = k.val; rw [e1]; omega

/-- The second column window's block: the same rows of the second stacked array. -/
theorem iblk3_apply (c : Dev nD) (t : Fin cfg0.N) (r k : Fin 1024) :
    (iblk m c 3 t : Vec F S1024x1024 .bf16) (ix2 r k) = V m c main_v25 (ix2 (row (jbT t) r) k) := by
  obtain ⟨-, -, -, -, -, -, e0, e1, -⟩ := idx_facts t
  unfold iblk
  rw [View.read_apply]
  show V m c main_v25 _ = V m c main_v25 _
  refine congrArg (V m c main_v25) (funext fun a => Fin.ext ?_)
  match a with
  | ⟨0, _⟩ => show win0_3.index t (0 : Fin 2) * 1024 + 1 * r.val = t.val % 4 * 1024 + r.val; rw [e0]; omega
  | ⟨1, _⟩ => show win0_3.index t (1 : Fin 2) * 1024 + 1 * k.val = k.val; rw [e1]; omega

/-- What the accumulator holds after a first point of a grid row … -/
theorem snd_A (c : Dev nD) (t : Fin cfg0.N) (h0 : t.val % 4 = 0) :
    (outsAt0 m c t.val t.isLt).2
      = k0_pay1 (k0_pay4 (grid0.coords t) (iblk m c 0 t) (iblk m c 1 t) (iblk m c 2 t) (iblk m c 3 t) k0_pay3) :=
  by
  have h1 : ¬t.val % 4 = 3 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr h0) (fun h => h1 ((hcond0_1 t).mp h))
      (iblk m c 0 t) (iblk m c 1 t) (iblk m c 2 t) (iblk m c 3 t)

/-- … and after any other point, from what the point before left. -/
theorem snd_BC (c : Dev nD) (t : Fin cfg0.N) (h0 : ¬t.val % 4 = 0) :
    (outsAt0 m c t.val t.isLt).2
      = k0_pay1 (k0_pay4 (grid0.coords t) (iblk m c 0 t) (iblk m c 1 t) (iblk m c 2 t) (iblk m c 3 t)
          (outsAt0 m c (t.val - 1) (Nat.lt_of_le_of_lt (Nat.sub_le _ _) t.isLt)).2) := by
  by_cases h1 : t.val % 4 = 3
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2

/-- At the last point of a grid row the output block is the row sums of the accumulator the point leaves. -/
theorem fst_C (c : Dev nD) (t : Fin cfg0.N) (h1 : t.val % 4 = 3) :
    (outsAt0 m c t.val t.isLt).1 = k0_pay2 (outsAt0 m c t.val t.isLt).2 := by
  have h0 : ¬t.val % 4 = 0 := by omega
  rw [outsAt0_C m c t h0 h1]
  dsimp only
  rw [sout_C c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2]
  exact out_C c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2

end Blocks

/-! ## One point's arithmetic, on the extended reals -/

/-- The body's new accumulator at row r, lane l, when its four blocks are rows ib (left factors) and rows jb (right
    factors) of a high-part matrix and a remainder matrix: the old value plus lane l's share of column block jb. -/
theorem step_apply (i : grid0.Coords) (ib jb : Fin 4) (hi0 : (i 0).val = ib.val) (hi1 : (i 1).val = jb.val)
    (Zh Zl : Mat 4096 1024) (x0 x1 x2 x3 : Vec Ideal S1024x1024 .bf16)
    (hx0 : ∀ r k, x0 (ix2 r k) = Zh (row ib r) k) (hx1 : ∀ r k, x1 (ix2 r k) = Zl (row ib r) k)
    (hx2 : ∀ r k, x2 (ix2 r k) = Zh (row jb r) k) (hx3 : ∀ r k, x3 (ix2 r k) = Zl (row jb r) k)
    (acc : Vec Ideal S1024x128 .f32) (r : Fin 1024) (l : Fin 128) :
    k0_pay4 (F := Ideal) i x0 x1 x2 x3 acc (ix2 r l) = acc (ix2 r l) + partK Zh Zl (row ib r) jb l := by
  refine (pay4_apply i x0 x1 x2 x3 acc r l).trans ?_
  refine congrArg (acc (ix2 r l) + ·) ?_
  unfold partK
  refine Finset.sum_congr rfl fun g _ => ?_
  unfold eK simK
  rw [← row_col jb g l]
  simp only [hx0, hx1, hx2, hx3]
  refine if_congr ?_ rfl rfl
  rw [hi0, hi1]
  exact ⟨fun h => Fin.ext h, fun h => congrArg Fin.val h⟩

/-- Lane l's accumulator after one more column block. -/
theorem accK_succ (Zh Zl : Mat 4096 1024) (i : Fin 4096) (l : Fin 128) (j : Fin 4) :
    accK Zh Zl i l (j.val + 1) = accK Zh Zl i l j.val + partK Zh Zl i j l := by
  show accK Zh Zl i l j.val + (if h : j.val < 4 then partK Zh Zl i ⟨j.val, h⟩ l else 0) = _
  rw [dif_pos j.isLt]

/-! ## The accumulator and the output block after every point -/

section Run
variable (m : (ℓ : Loc nD τ sig) → Buf (Elt Ideal) ℓ)

/-- The high parts: the first stacked array as the region finds it. -/
abbrev zh (c : Dev nD) : Mat 4096 1024 := mat (V m c main_v24)
/-- The remainders: the second stacked array as the region finds it. -/
abbrev zl (c : Dev nD) : Mat 4096 1024 := mat (V m c main_v25)

/-- The body at point t, on the point's blocks, adds to any accumulator lane l's share of column block t % 4 for the
    rows of row block t / 4. -/
theorem point_apply (c : Dev nD) (t : Fin cfg0.N) (acc : Vec Ideal S1024x128 .f32) (r : Fin 1024) (l : Fin 128) :
    k0_pay1 (k0_pay4 (F := Ideal) (grid0.coords t) (iblk m c 0 t) (iblk m c 1 t) (iblk m c 2 t) (iblk m c 3 t) acc) (ix2 r l)
      = acc (ix2 r l) + partK (zh m c) (zl m c) (row (ibT t) r) (jbT t) l := by
  obtain ⟨-, -, -, -, -, -, -, -, -, -, g0, g1⟩ := idx_facts t
  refine (congrFun (pay1_eq _) (ix2 r l)).trans ?_
  exact step_apply (grid0.coords t) (ibT t) (jbT t) g0 g1 (zh m c) (zl m c) (iblk m c 0 t) (iblk m c 1 t) (iblk m c 2 t)
    (iblk m c 3 t) (iblk0_apply m c t) (iblk1_apply m c t) (iblk2_apply m c t) (iblk3_apply m c t) acc r l

/-- After a first point of a grid row the accumulator holds the first column block's share. -/
theorem acc_A (c : Dev nD) (t : Fin cfg0.N) (h0 : t.val % 4 = 0) (r : Fin 1024) (l : Fin 128) :
    (outsAt0 m c t.val t.isLt).2 (ix2 r l) = accK (zh m c) (zl m c) (row (ibT t) r) l (t.val % 4 + 1) := by
  rw [snd_A m c t h0]
  refine (point_apply m c t (k0_pay3 (F := Ideal)) r l).trans ?_
  rw [pay3_apply, zero_add]
  refine ((accK_succ (zh m c) (zl m c) (row (ibT t) r) l (jbT t)).trans ?_).symm
  have e : accK (zh m c) (zl m c) (row (ibT t) r) l (jbT t).val = 0 := by
    show accK (zh m c) (zl m c) (row (ibT t) r) l (t.val % 4) = 0
    rw [h0]; rfl
  rw [e, zero_add]

/-- After any other point it holds one more column block's share than after the point before. -/
theorem acc_BC (c : Dev nD) (t : Fin cfg0.N) (h0 : ¬t.val % 4 = 0) (r : Fin 1024) (l : Fin 128)
    (ih : (outsAt0 m c (t.val - 1) (Nat.lt_of_le_of_lt (Nat.sub_le _ _) t.isLt)).2 (ix2 r l)
      = accK (zh m c) (zl m c) (row (ibT t) r) l (t.val % 4)) :
    (outsAt0 m c t.val t.isLt).2 (ix2 r l) = accK (zh m c) (zl m c) (row (ibT t) r) l (t.val % 4 + 1) := by
  rw [snd_BC m c t h0]
  refine (point_apply m c t _ r l).trans ?_
  rw [ih]
  exact (accK_succ (zh m c) (zl m c) (row (ibT t) r) l (jbT t)).symm

/-- The accumulator after point n = 4 * ib + jb: for the rows of row block ib, lane l's shares of column blocks 0 … jb
    added in that order — by induction on the point. -/
theorem acc_eq (c : Dev nD) : ∀ (n : ℕ) (h : n < cfg0.N) (r : Fin 1024) (l : Fin 128),
    (outsAt0 m c n h).2 (ix2 r l) = accK (zh m c) (zl m c) (row (ibT ⟨n, h⟩) r) l (n % 4 + 1)
  | 0, h, r, l => acc_A m c ⟨0, h⟩ rfl r l
  | n + 1, h, r, l => by
    by_cases h0 : (n + 1) % 4 = 0
    · exact acc_A m c ⟨n + 1, h⟩ h0 r l
    · refine acc_BC m c ⟨n + 1, h⟩ h0 r l ?_
      have e1 : ibT ⟨n, Nat.lt_of_succ_lt h⟩ = ibT ⟨n + 1, h⟩ := Fin.ext (show n / 4 = (n + 1) / 4 by omega)
      have e2 : n % 4 + 1 = (n + 1) % 4 := by omega
      have ih := acc_eq c n (Nat.lt_of_succ_lt h) r l
      rw [e1, e2] at ih
      exact ih

/-- The output block after the last point of grid row ib: row r's denominator, the 128 lanes added after the four
    column blocks. -/
theorem out_eq (c : Dev nD) (t : Fin cfg0.N) (h1 : t.val % 4 = 3) (r : Fin 1024) (u : Fin 1) :
    (outsAt0 m c t.val t.isLt).1 (ix2 r u) = denK (zh m c) (zl m c) (row (ibT t) r) := by
  obtain rfl : u = 0 := Subsingleton.elim _ _
  rw [fst_C m c t h1]
  refine (pay2_apply _ r).trans ?_
  unfold denK
  refine Finset.sum_congr rfl fun l _ => ?_
  refine (acc_eq m c t.val t.isLt r l).trans ?_
  show accK (zh m c) (zl m c) (row (ibT t) r) l (t.val % 4 + 1) = _
  rw [h1]

/-! ## The output array after the region -/

/-- What the last point of a grid row writes back is its block of the denominators. -/
theorem flushed_eq (c : Dev nD) (t : Fin cfg0.N) (hf : (cfg0.win 4).flush t = true) :
    (dats m 0 c).flushed 4 t
      = ((cfg0.win 4).blk t).view.read (Elt Ideal) (fun j : S4096x1.Idx => denK (zh m c) (zl m c) (j 0)) := by
  have h3 : t.val % 4 = 3 := (flush0_4 t).mp hf
  obtain ⟨-, -, -, -, -, -, -, -, e0, e1, -⟩ := idx_facts t
  show (cfg0.win 4).cut (grid0.coords t) ((dats m 0 c).after 4 t) = _
  rw [after0_4]
  funext y
  obtain ⟨r, u, rfl⟩ : ∃ (r : Fin 1024) (u : Fin 1), y = ix2 r u := ⟨y 0, y 1, eq_ix2 y⟩
  show (outsAt0 m c t.val t.isLt).1 (ix2 r u) = denK (zh m c) (zl m c) ((((cfg0.win 4).blk t).view.emb (ix2 r u)) 0)
  rw [out_eq m c t h3 r u]
  refine congrArg (denK (zh m c) (zl m c)) (Fin.ext ?_)
  show t.val / 4 * 1024 + r.val = win0_4.index t (0 : Fin 2) * 1024 + 1 * r.val
  rw [e0]; omega

/-- An index of the output array is in point t's block iff each coordinate is in the block's range. -/
theorem mem_blk (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v26).slice (win0_4.rect t)).set ↔ _
  rw [View.set_slice_whole, Rect.mem_set_unit]
  exact Iff.rfl

/-- After the region the output array holds every row's denominator: row i is written back by the last point of grid
    row i / 1024. -/
theorem den_value (c : Dev nD) :
    (dats (F := Ideal) m 0 c).arrAt 4 cfg0.N
      = fun j : S4096x1.Idx => denK (mat (V m c main_v24)) (mat (V m c main_v25)) (j 0) :=
  (dats m 0 c).arrAt_eq_of_cover 4 (fun j : S4096x1.Idx => denK (zh m c) (zl m c) (j 0)) (flushed_eq m c) fun i => by
    have hN : cfg0.N = 16 := N_0
    have hi0 : (i 0).val < 4096 := (i 0).isLt
    have hi1 : (i 1).val < 1 := (i 1).isLt
    let t : Fin cfg0.N := ⟨4 * ((i 0).val / 1024) + 3, by omega⟩
    obtain ⟨-, -, -, -, -, -, -, -, e0, e1, -⟩ := idx_facts t
    have ht : t.val = 4 * ((i 0).val / 1024) + 3 := rfl
    refine ⟨t, (flush0_4 t).mpr (by omega), ?_⟩
    rw [mem_blk]
    intro a
    match a with
    | ⟨0, _⟩ =>
      show win0_4.index t (0 : Fin 2) * 1024 ≤ (i 0).val ∧ (i 0).val < win0_4.index t (0 : Fin 2) * 1024 + 1024
      rw [e0]; omega
    | ⟨1, _⟩ =>
      show win0_4.index t (1 : Fin 2) * 1 ≤ (i 1).val ∧ (i 1).val < win0_4.index t (1 : Fin 2) * 1 + 1
      rw [e1]; omega

end Run

end Cert.KernelIdeal.DenValue

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.HostValue.lean ====
/-
  The host operations around the kernel region, read as closed forms on the extended reals.

  Before the region each of the two 2048 x 1024 arguments is scaled row by row: a row's entries are squared and
  summed, the square root of the sum is kept away from zero by a small word, and every entry of the row is divided
  by the result. The change of float format is the identity on the extended reals, so the high part of a scaled
  entry is the entry itself and the remainder is the entry minus itself. The two scaled matrices, and the two
  remainder matrices, are stacked row-wise into 4096 x 1024 arrays.

  After the region the column of 4096 denominators is laid flat; the row-wise product of the two scaled matrices is
  summed along each row, laid twice one after the other, doubled, the logarithm of the denominators subtracted, the
  4096 terms summed, divided by 4096 and negated.

  Neither stretch writes an argument.
-/
import proofs.«170399_j67310727463046_2_alg».proof.Proof.Gen.KernelIdeal.Launch
import proofs.«170399_j67310727463046_2_alg».proof.Proof.Spec
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.ReduceAll
import proofs.«170399_j67310727463046_2_alg».proof.Proof.Gen.Pre_finite_inputs
import proofs.«170399_j67310727463046_2_alg».proof.Proof.LibFiniteEntry

noncomputable section

open scoped BigOperators

namespace Cert.KernelIdeal.HostValue

open Cert.KernelIdeal Cert.KernelIdeal.Gen Cert.NtXent Idealize.ShloMosaic Idealize.ShloMosaic.ValueIdx

/-- The buffer contents of one core, as the host operations see them. -/
abbrev Val := Valuation τ sig (Elt Ideal)

/-! ## No host operation writes an argument -/

theorem pre_arg0 (W : Val) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem pre_arg1 (W : Val) :
    StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem tail_arg0 (W : Val) :
    StableHlo.after (hostOps1 (F := Ideal)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_arg1 (W : Val) :
    StableHlo.after (hostOps1 (F := Ideal)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-! ## Layout operations read at coordinates -/

/-- A scalar word spread over an array reads the word's value everywhere. -/
theorem splat_apply {t : Shape} (h : S_.BroadcastsInDim t ![]) (w : BitVec 32) (i : t.Idx) :
    broadcastInDim t ![] h (constant (F := Ideal) S_ .f32 w) i = Ideal.ofBits .f32 w :=
  broadcastInDim_apply _ h _ i (fun a => a.elim0) (fun a => a.elim0)

/-- A vector `[a]` laid as the column `[a, 1]` reads its entry `i` at `(i, u)`. -/
theorem column_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread along the second axis reads its entry `(i, 0)` at `(i, k)`. -/
theorem spread_apply {α : Type} {a b : ℕ} (v : (⟨2, ![a, 1]⟩ : Shape).Idx → α)
    (h : (⟨2, ![a, 1]⟩ : Shape).BroadcastsInDim ⟨2, ![a, b]⟩ ![0, 1]) (i : Fin a) (k : Fin b) :
    broadcastInDim ⟨2, ![a, b]⟩ ![0, 1] h v (ix2 i k) = v (ix2 i (0 : Fin 1)) := by
  refine broadcastInDim_apply _ h v (ix2 i k) (ix2 i (0 : Fin 1)) fun ax => ?_
  match ax with
  | ⟨0, _⟩ =>
    show i.val = if a = 1 then 0 else i.val
    split
    · have := i.isLt; omega
    · rfl
  | ⟨1, _⟩ => rfl

/-- The host's sum along the second axis of a 2048 x 1024 array, from the zero word: at `r` the sum over `k` of the
    entries `(r, k)`. -/
theorem rowSum_apply (x : FVec Ideal S2048x1024 .f32) (h : S2048x1024.ReducesTo [1] S2048) (hu : 0 < S_.numel)
    (r : Fin 2048) :
    Host.reduceAdd (F := Ideal) x (constant (F := Ideal) S_ .f32 0x00000000#32) h hu (ix1 r)
      = ∑ k : Fin 1024, x (ix2 r k) := by
  have hR : S2048x1024.Reduces [1] S2048 := by decide
  refine (Ideal.hostReduceAdd_single h hR x _ (ix1 r)).trans ?_
  show Ideal.ofBits .f32 0x00000000#32 + ∑ k : Fin 1024, x (hR.lift (ix1 r) k) = _
  rw [Ideal.ofBits_zero_f32, zero_add]
  refine Finset.sum_congr rfl fun k _ => congrArg x (funext fun c => Fin.ext ?_)
  match c with
  | ⟨0, _⟩ => rfl
  | ⟨1, _⟩ => rfl

/-- Two 2048 x 1024 arrays joined along the rows read, at `(i, k)`, the first at row `i` below 2048 and the second at
    row `i - 2048` from there on. -/
theorem stack_apply (a b : S2048x1024.Idx → EReal) (h : Shape.Concatenates [S2048x1024, S2048x1024] S4096x1024 0)
    (i : Fin 4096) (k : Fin 1024) :
    concatenate S4096x1024 0 [⟨S2048x1024, a⟩, ⟨S2048x1024, b⟩] h (ix2 i k) = stack (mat a) (mat b) i k := by
  by_cases hi : i.val < 2048
  · have e : stack (mat a) (mat b) i k = a (ix2 (⟨i.val, hi⟩ : Fin 2048) k) := by unfold stack; rw [dif_pos hi]
    rw [e]
    refine concatenate_pair_apply_left _ a b h (ix2 i k) rfl (ix2 (⟨i.val, hi⟩ : Fin 2048) k) fun c => ?_
    match c with
    | ⟨0, _⟩ => rfl
    | ⟨1, _⟩ => rfl
  · have e : stack (mat a) (mat b) i k = b (ix2 (⟨i.val - 2048, by have := i.isLt; omega⟩ : Fin 2048) k) := by
      unfold stack; rw [dif_neg hi]
    rw [e]
    refine concatenate_pair_apply_right _ a b h (ix2 i k) rfl rfl
      (ix2 (⟨i.val - 2048, by have := i.isLt; omega⟩ : Fin 2048) k) (fun c hc => ?_) ?_
    · match c with
      | ⟨0, _⟩ => exact absurd rfl hc
      | ⟨1, _⟩ => rfl
    · show i.val - 2048 + 2048 = i.val
      omega

/-! ## A matrix scaled row by row -/

/-- The sum of squares of every row, as the host operations build it. -/
def sumSq (x : FVec Ideal S2048x1024 .f32) : FVec Ideal S2048 .f32 :=
  Host.reduceAdd (mulf x x) (constant (F := Ideal) S_ .f32 0x00000000#32) reducesTo_S2048x1024_S2048_d1 h_S_

/-- The column of row lengths, each kept away from zero. -/
def normCol (x : FVec Ideal S2048x1024 .f32) : FVec Ideal S2048x1 .f32 :=
  maximumf (Host.sqrt (broadcastInDim S2048x1 ![0] bcast_S2048_S2048x1_0 (sumSq x)))
    (broadcastInDim S2048x1 ![] bcast_S_S2048x1 (constant (F := Ideal) S_ .f32 0x2B8CBCCC#32))

/-- The matrix with every row divided by its length. -/
def scaled (x : FVec Ideal S2048x1024 .f32) : FVec Ideal S2048x1024 .f32 :=
  Host.divf x (broadcastInDim S2048x1024 ![0, 1] bcast_S2048x1_S2048x1024_0_1 (normCol x))

theorem sumSq_apply (x : FVec Ideal S2048x1024 .f32) (r : Fin 2048) :
    sumSq x (ix1 r) = ∑ k : Fin 1024, x (ix2 r k) * x (ix2 r k) :=
  rowSum_apply (mulf x x) _ _ r

theorem normCol_apply (x : FVec Ideal S2048x1024 .f32) (r : Fin 2048) (u : Fin 1) :
    normCol x (ix2 r u) = rowNorm (mat x) r := by
  show max (Ideal.sqrt (broadcastInDim S2048x1 ![0] bcast_S2048_S2048x1_0 (sumSq x) (ix2 r u)))
      (broadcastInDim S2048x1 ![] bcast_S_S2048x1 (constant (F := Ideal) S_ .f32 0x2B8CBCCC#32) (ix2 r u))
    = max (Ideal.sqrt (∑ k : Fin 1024, x (ix2 r k) * x (ix2 r k))) epsW
  rw [column_apply, splat_apply, sumSq_apply]

theorem scaled_apply (x : FVec Ideal S2048x1024 .f32) (r : Fin 2048) (k : Fin 1024) :
    scaled x (ix2 r k) = unit (mat x) r k := by
  show Ideal.div (x (ix2 r k)) (broadcastInDim S2048x1024 ![0, 1] bcast_S2048x1_S2048x1024_0_1 (normCol x) (ix2 r k))
    = Ideal.div (x (ix2 r k)) (rowNorm (mat x) r)
  rw [spread_apply, normCol_apply]

/-- The scaled matrix is the unit-row matrix of the specification. -/
theorem mat_scaled (x : FVec Ideal S2048x1024 .f32) : mat (scaled x) = unit (mat x) :=
  funext fun r => funext fun k => scaled_apply x r k

/-- The two arguments' contents. -/
abbrev arg0 (W : Val) : FVec Ideal S2048x1024 .f32 := W (Proc.devRef .tc main_arg0)
abbrev arg1 (W : Val) : FVec Ideal S2048x1024 .f32 := W (Proc.devRef .tc main_arg1)

theorem v7_term (W : Val) :
    (StableHlo.after (hostOps0 (F := Ideal)) W (Proc.devRef .tc main_v7) : FVec Ideal S2048x1024 .f32) = scaled (arg0 W) := by
  dsimp only [hostOps0]
  after_results
  rfl

theorem v15_term (W : Val) :
    (StableHlo.after (hostOps0 (F := Ideal)) W (Proc.devRef .tc main_v15) : FVec Ideal S2048x1024 .f32) = scaled (arg1 W) := by
  dsimp only [hostOps0]
  after_results
  rfl

theorem pre_v7 (W : Val) :
    (StableHlo.after (hostOps0 (F := Ideal)) W (Proc.devRef .tc main_v7) : S2048x1024.Idx → EReal)
      = fun j => unit (mat (arg0 W)) (j 0) (j 1) := by
  rw [v7_term]
  funext j
  obtain ⟨r, k, rfl⟩ : ∃ (r : Fin 2048) (k : Fin 1024), j = ix2 r k := ⟨j 0, j 1, eq_ix2 j⟩
  exact scaled_apply _ r k

theorem pre_v15 (W : Val) :
    (StableHlo.after (hostOps0 (F := Ideal)) W (Proc.devRef .tc main_v15) : S2048x1024.Idx → EReal)
      = fun j => unit (mat (arg1 W)) (j 0) (j 1) := by
  rw [v15_term]
  funext j
  obtain ⟨r, k, rfl⟩ : ∃ (r : Fin 2048) (k : Fin 1024), j = ix2 r k := ⟨j 0, j 1, eq_ix2 j⟩
  exact scaled_apply _ r k

/-! ## The stacked high parts and remainders -/

/-- The high part of a scaled matrix: the change of float format is the identity here. -/
def high (z : FVec Ideal S2048x1024 .f32) : FVec Ideal S2048x1024 .bf16 := truncf .bf16 z bitsLt_bf16_f32

/-- What is left of a scaled matrix once its high part is taken away. -/
def low (z : FVec Ideal S2048x1024 .f32) : FVec Ideal S2048x1024 .bf16 :=
  truncf .bf16 (subf z (extf .f32 (truncf .bf16 z bitsLt_bf16_f32) bitsLt_bf16_f32)) bitsLt_bf16_f32

theorem mat_high (z : FVec Ideal S2048x1024 .f32) : mat (high z) = mat z := rfl

theorem mat_low (z : FVec Ideal S2048x1024 .f32) : mat (low z) = rest (mat z) := rfl

theorem v24_term (W : Val) :
    (StableHlo.after (hostOps0 (F := Ideal)) W (Proc.devRef .tc main_v24) : S4096x1024.Idx → EReal)
      = concatenate S4096x1024 0 [⟨S2048x1024, high (scaled (arg0 W))⟩, ⟨S2048x1024, high (scaled (arg1 W))⟩]
          concatenates_S2048x1024_S2048x1024_S4096x1024_d0 := by
  dsimp only [hostOps0]
  after_results_simp
  rfl

theorem v25_term (W : Val) :
    (StableHlo.after (hostOps0 (F := Ideal)) W (Proc.devRef .tc main_v25) : S4096x1024.Idx → EReal)
      = concatenate S4096x1024 0 [⟨S2048x1024, low (scaled (arg0 W))⟩, ⟨S2048x1024, low (scaled (arg1 W))⟩]
          concatenates_S2048x1024_S2048x1024_S4096x1024_d0 := by
  dsimp only [hostOps0]
  after_results_simp
  rfl

theorem pre_v24 (W : Val) :
    (StableHlo.after (hostOps0 (F := Ideal)) W (Proc.devRef .tc main_v24) : S4096x1024.Idx → EReal)
      = fun j => stack (unit (mat (arg0 W))) (unit (mat (arg1 W))) (j 0) (j 1) := by
  rw [v24_term]
  funext j
  obtain ⟨i, k, rfl⟩ : ∃ (i : Fin 4096) (k : Fin 1024), j = ix2 i k := ⟨j 0, j 1, eq_ix2 j⟩
  refine (stack_apply _ _ _ i k).trans ?_
  rw [mat_high, mat_high, mat_scaled, mat_scaled]
  rfl

theorem pre_v25 (W : Val) :
    (StableHlo.after (hostOps0 (F := Ideal)) W (Proc.devRef .tc main_v25) : S4096x1024.Idx → EReal)
      = fun j => stack (rest (unit (mat (arg0 W)))) (rest (unit (mat (arg1 W)))) (j 0) (j 1) := by
  rw [v25_term]
  funext j
  obtain ⟨i, k, rfl⟩ : ∃ (i : Fin 4096) (k : Fin 1024), j = ix2 i k := ⟨j 0, j 1, eq_ix2 j⟩
  refine (stack_apply _ _ _ i k).trans ?_
  rw [mat_low, mat_low, mat_scaled, mat_scaled]
  rfl

/-! ## The finiteness precondition decoded -/

/-- Where the precondition holds, every entry of both arguments is a real number: the test is, per array, that every
    entry's absolute value compares below the word of +∞, the two verdicts and-ed. -/
theorem real_of_pre (x0 x1 : FVec Ideal S2048x1024 .f32)
    (h : Cert.Pre_finite_inputs.fn (F := Ideal) x0 x1 = fun _ => 1#1) :
    (∀ j, ∃ a : ℝ, x0 j = (a : EReal)) ∧ (∀ j, ∃ a : ℝ, x1 j = (a : EReal)) := by
  have h0 := congrFun h ix0
  dsimp only [Cert.Pre_finite_inputs.fn] at h0
  obtain ⟨ha, hb⟩ := IntOp.andi_eq_one.1 h0
  exact ⟨fun j => Cert.FiniteEntry.real_of_abs_lt_top (x0 j) (Host.reduce_andi_all _ _ _ _ ix0 ha j),
    fun j => Cert.FiniteEntry.real_of_abs_lt_top (x1 j) (Host.reduce_andi_all _ _ _ _ ix0 hb j)⟩

/-! ## The operations after the region -/

/-- A column `[4096, 1]` laid flat reads its entry `(i, 0)` at `i`. -/
theorem flat_apply {α : Type} (d : S4096x1.Idx → α) (h : S4096x1.ShapeCasts S4096) (i : Fin 4096) :
    shapeCast S4096 d h (ix1 i) = d (ix2 i (0 : Fin 1)) :=
  shapeCast_apply d h _ _ (by
    rw [Shape.rowMajor_val_two, Shape.rowMajor_val_one]
    show i.val * 1 + 0 = i.val
    omega)

/-- A vector of 2048 entries laid twice, one copy after the other, reads entry `i mod 2048` at `i`. -/
theorem twice_apply (p : S2048.Idx → EReal) (h : Shape.Concatenates [S2048, S2048] S4096 0) (i : Fin 4096) :
    concatenate S4096 0 [⟨S2048, p⟩, ⟨S2048, p⟩] h (ix1 i) = p (ix1 (halfRow i)) := by
  by_cases hi : i.val < 2048
  · refine (concatenate_pair_apply_left _ p p h (ix1 i) rfl (ix1 (⟨i.val, hi⟩ : Fin 2048)) fun c => ?_).trans ?_
    · match c with
      | ⟨0, _⟩ => rfl
    · refine congrArg p (congrArg (ix1 (n := 2048)) (Fin.ext ?_))
      show i.val = i.val % 2048
      omega
  · refine (concatenate_pair_apply_right _ p p h (ix1 i) rfl rfl
      (ix1 (⟨i.val - 2048, by have := i.isLt; omega⟩ : Fin 2048)) (fun c hc => ?_) ?_).trans ?_
    · match c with
      | ⟨0, _⟩ => exact absurd rfl hc
    · show i.val - 2048 + 2048 = i.val
      omega
    · refine congrArg p (congrArg (ix1 (n := 2048)) (Fin.ext ?_))
      show i.val - 2048 = i.val % 2048
      have := i.isLt
      omega

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : ℕ} (f : (⟨1, ![n]⟩ : Shape).Idx → EReal) : ∑ i, f i = ∑ a : Fin n, f (ix1 a) :=
  (Equiv.sum_comp (idxEquiv1 (n := n)).symm f).symm

/-- The host's sum of a vector of 4096 entries, from the zero word: every entry is summed. -/
theorem totalSum_apply (y : FVec Ideal S4096 .f32) (h : S4096.ReducesTo [0] S_) (hu : 0 < S_.numel) (j : S_.Idx) :
    Host.reduceAdd (F := Ideal) y (constant (F := Ideal) S_ .f32 0x00000000#32) h hu j = ∑ i : Fin 4096, y (ix1 i) := by
  refine (Ideal.hostReduceAdd_total h (fun b => b.elim0) y _ j).trans ?_
  show Ideal.ofBits .f32 0x00000000#32 + ∑ i : S4096.Idx, y i = _
  rw [Ideal.ofBits_zero_f32, zero_add]
  exact sum_idx1 y

/-- The row-wise products of two matrices, summed along each row. -/
def rowDot (p q : FVec Ideal S2048x1024 .f32) : FVec Ideal S2048 .f32 :=
  Host.reduceAdd (mulf p q) (constant (F := Ideal) S_ .f32 0x00000000#32) reducesTo_S2048x1024_S2048_d1 h_S_

/-- The positives of the 4096 stacked rows: the 2048 row products laid twice. -/
def posTwice (p q : FVec Ideal S2048x1024 .f32) : FVec Ideal S4096 .f32 :=
  concatenate S4096 0 [⟨S2048, rowDot p q⟩, ⟨S2048, rowDot p q⟩] concatenates_S2048_S2048_S4096_d0

/-- Per stacked row: the doubled positive minus the logarithm of the denominator. -/
def terms (p q : FVec Ideal S2048x1024 .f32) (d : FVec Ideal S4096x1 .f32) : FVec Ideal S4096 .f32 :=
  subf (mulf (posTwice p q) (broadcastInDim S4096 ![] bcast_S_S4096 (constant (F := Ideal) S_ .f32 0x40000000#32)))
    (Host.log (shapeCast S4096 d shapeCasts_S4096x1_S4096))

/-- Minus the mean of the 4096 terms. -/
def tailLoss (p q : FVec Ideal S2048x1024 .f32) (d : FVec Ideal S4096x1 .f32) : FVec Ideal S_ .f32 :=
  Host.negf (Host.divf (Host.reduceAdd (terms p q d) (constant (F := Ideal) S_ .f32 0x00000000#32) reducesTo_S4096_S_d0 h_S_)
    (constant (F := Ideal) S_ .f32 0x45800000#32))

theorem rowDot_apply (p q : FVec Ideal S2048x1024 .f32) (r : Fin 2048) :
    rowDot p q (ix1 r) = ∑ k : Fin 1024, p (ix2 r k) * q (ix2 r k) :=
  rowSum_apply (mulf p q) _ _ r

theorem posTwice_apply (p q : FVec Ideal S2048x1024 .f32) (i : Fin 4096) :
    posTwice p q (ix1 i) = ∑ k : Fin 1024, p (ix2 (halfRow i) k) * q (ix2 (halfRow i) k) :=
  (twice_apply _ _ i).trans (rowDot_apply p q (halfRow i))

theorem terms_apply (p q : FVec Ideal S2048x1024 .f32) (d : FVec Ideal S4096x1 .f32) (i : Fin 4096) :
    terms p q d (ix1 i)
      = (∑ k : Fin 1024, p (ix2 (halfRow i) k) * q (ix2 (halfRow i) k)) * twoW - Ideal.log (d (ix2 i (0 : Fin 1))) := by
  show posTwice p q (ix1 i) * broadcastInDim S4096 ![] bcast_S_S4096 (constant (F := Ideal) S_ .f32 0x40000000#32) (ix1 i)
      - Ideal.log (shapeCast S4096 d shapeCasts_S4096x1_S4096 (ix1 i)) = _
  rw [posTwice_apply, splat_apply, flat_apply]

theorem tailLoss_apply (p q : FVec Ideal S2048x1024 .f32) (d : FVec Ideal S4096x1 .f32) (j : S_.Idx) :
    tailLoss p q d j
      = lossOf (· * twoW) (fun i => ∑ k : Fin 1024, p (ix2 (halfRow i) k) * q (ix2 (halfRow i) k))
          (fun i => d (ix2 i (0 : Fin 1))) := by
  show -(Ideal.div (Host.reduceAdd (F := Ideal) (terms p q d) (constant (F := Ideal) S_ .f32 0x00000000#32)
      reducesTo_S4096_S_d0 h_S_ j) nW) = _
  rw [totalSum_apply]
  exact congrArg (fun s => -(Ideal.div s nW)) (Finset.sum_congr rfl fun i _ => terms_apply p q d i)

/-- What the operations after the region read: the two scaled matrices and the column of denominators. -/
abbrev left (W : Val) : FVec Ideal S2048x1024 .f32 := W (Proc.devRef .tc main_v7)
abbrev right (W : Val) : FVec Ideal S2048x1024 .f32 := W (Proc.devRef .tc main_v15)
abbrev denom (W : Val) : FVec Ideal S4096x1 .f32 := W (Proc.devRef .tc main_v26)

theorem v37_term (W : Val) :
    (StableHlo.after (hostOps1 (F := Ideal)) W (Proc.devRef .tc main_v37) : S_.Idx → EReal)
      = tailLoss (left W) (right W) (denom W) := by
  dsimp only [hostOps1]
  after_results
  rfl

theorem tail_v37 (W : Val) :
    (StableHlo.after (hostOps1 (F := Ideal)) W (Proc.devRef .tc main_v37) : S_.Idx → EReal)
      = fun _ => lossOf (· * twoW)
          (fun i => ∑ k : Fin 1024, left W (ix2 (halfRow i) k) * right W (ix2 (halfRow i) k))
          (fun i => denom W (ix2 i (0 : Fin 1))) := by
  rw [v37_term]
  funext j
  exact tailLoss_apply _ _ _ j

end Cert.KernelIdeal.HostValue

end
-- ==== Proof.RefValue.lean ====
/-
  The reference program's result as the closed form of the contrastive loss.

  The program scales every row of its two inputs to unit length, stacks the scaled matrices, forms the similarity
  matrix of the stack in one product, reads the positives off the two diagonals 2048 places from the main one,
  multiplies the exponentials by one minus the identity and sums each row, and returns minus the mean of
  positive / temperature minus log denominator.  Each lemma below reads one named intermediate array at
  coordinates; the last one assembles them.
-/
import proofs.«170399_j67310727463046_2_alg».proof.Proof.Gen.ReferenceIdeal.Read
import proofs.«170399_j67310727463046_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Cert.NtXent

/-- An input array. -/
abbrev Arg : Type := (⟨S2048x1024, .f32⟩ : BufTy).Contents (Elt Ideal)

/-! ### Sums over a rank-1 index set -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### 32-bit words of small numbers -/

/-- A 32-bit word whose unsigned reading is below 2^31 is not negative, and reads the same signed. -/
theorem word_small {w : BitVec 32} {n : ℕ} (hw : w.toNat = n) (hn : n < 2147483648) :
    IntOp.cmpi .slt w 0#32 = 0#1 ∧ w.toInt.toNat = n := by
  have hi : w.toInt = (n : Int) := by
    rw [BitVec.toInt_eq_toNat_cond, hw, if_pos (by omega)]
  refine ⟨?_, by rw [hi]; rfl⟩
  show BitVec.ofBool (w.slt 0#32) = 0#1
  have hs : w.slt 0#32 = false := by
    unfold BitVec.slt
    rw [hi]
    simp
  rw [hs]; rfl

/-- The word of a number below 2^32 reads that number. -/
theorem toNat_ofNat_small {n : ℕ} (hn : n < 4294967296) : (BitVec.ofNat 32 n).toNat = n := by
  rw [BitVec.toNat_ofNat]; exact Nat.mod_eq_of_lt (by simpa using hn)

/-- The sum of the words of two numbers whose sum is below 2^32 reads their sum. -/
theorem toNat_add_small {a b : ℕ} (h : a + b < 4294967296) :
    (IntOp.addi (BitVec.ofNat 32 a) (BitVec.ofNat 32 b)).toNat = a + b := by
  show (BitVec.ofNat 32 a + BitVec.ofNat 32 b).toNat = a + b
  rw [BitVec.toNat_add, toNat_ofNat_small (by omega), toNat_ofNat_small (by omega)]
  exact Nat.mod_eq_of_lt (by simpa using h)

/-- Two numbers below 2^32 have the same 32-bit word only if they are equal. -/
theorem ofNat_inj {p q : ℕ} (hp : p < 4294967296) (hq : q < 4294967296) :
    BitVec.ofNat 32 p = BitVec.ofNat 32 q ↔ p = q := by
  constructor
  · intro e
    have := congrArg BitVec.toNat e
    rwa [toNat_ofNat_small hp, toNat_ofNat_small hq] at this
  · rintro rfl; rfl

/-- The "equal" bit of the words of two numbers below 2^32 (zero added to the first), read as an unsigned number:
    one when the numbers are equal, zero otherwise. -/
theorem eq_word_apply {p q : ℕ} (hp : p < 4294967296) (hq : q < 4294967296) :
    FloatOps.uitofp (F := Ideal) .f32 (IntOp.cmpi .eq (IntOp.addi (BitVec.ofNat 32 p) 0#32) (BitVec.ofNat 32 q))
      = if p = q then (1 : EReal) else 0 := by
  show ((((BitVec.ofBool (BitVec.ofNat 32 p + 0#32 == BitVec.ofNat 32 q)).toNat : ℕ) : ℝ) : EReal) = _
  rw [BitVec.add_zero]
  by_cases e : p = q
  · subst e
    rw [if_pos rfl]
    simp
  · rw [if_neg e]
    have hne : BitVec.ofNat 32 p ≠ BitVec.ofNat 32 q := fun h => e ((ofNat_inj hp hq).mp h)
    have : (BitVec.ofNat 32 p == BitVec.ofNat 32 q) = false := by simpa using hne
    rw [this]
    simp

/-! ### A gather of single entries at (row, column) pairs -/

section Gather
variable {α : Type}

/-- The operand coordinate the gather reads on axis a for result entry r: the a-th word of the r-th pair, read
    signed and clamped into the array. -/
theorem gather_pairs_coord (idx : IVec S2048x2 32) (r : Fin 2048) (a : Fin 2)
    (ha : a ∈ gather_S4096x4096_S2048x2_S2048_n_01_n_n_01_1_11.startIndexMap)
    (hc : a ∈ gather_S4096x4096_S2048x2_S2048_n_01_n_n_01_1_11.collapsedSliceDims)
    (hsi : gather_S4096x4096_S2048x2_S2048_n_01_n_n_01_1_11.siIdx (ix1 r)
        ⟨List.idxOf a gather_S4096x4096_S2048x2_S2048_n_01_n_n_01_1_11.startIndexMap,
          List.idxOf_lt_length_iff.2 ha⟩ = ix2 r a)
    (hsz : S4096x4096.size a - gather_S4096x4096_S2048x2_S2048_n_01_n_n_01_1_11.sliceSizes a = 4095)
    (p : ℕ) (hp : p < 4096) (h : (idx (ix2 r a)).toInt.toNat = p) :
    (gather_S4096x4096_S2048x2_S2048_n_01_n_n_01_1_11.operandIdx (ix1 r) idx a).val = p := by
  show gather_S4096x4096_S2048x2_S2048_n_01_n_n_01_1_11.start (ix1 r) idx a
      + gather_S4096x4096_S2048x2_S2048_n_01_n_n_01_1_11.batchCoord (ix1 r) a
      + gather_S4096x4096_S2048x2_S2048_n_01_n_n_01_1_11.offCoord (ix1 r) a = _
  rw [GatherDims.batchCoord_eq_zero _ _ _ List.not_mem_nil,
    GatherDims.offCoord_eq_zero _ _ _ (fun h' => ((GatherDims.mem_sKept _ _).mp h').1 hc)]
  simp only [Nat.add_zero]
  unfold GatherDims.start
  rw [dif_pos ha, hsi, h, hsz]
  omega

/-- The gather of single entries of the square array at a list of (row, column) pairs, one pair per result entry:
    entry r is the array at the pair's two words, read signed and clamped into the array. -/
theorem gather_pairs_apply (x : S4096x4096.Idx → α) (idx : IVec S2048x2 32) (r : Fin 2048) (p q : ℕ)
    (hp : p < 4096) (hq : q < 4096)
    (h0 : (idx (ix2 r (0 : Fin 2))).toInt.toNat = p) (h1 : (idx (ix2 r (1 : Fin 2))).toInt.toNat = q) :
    Host.gather gather_S4096x4096_S2048x2_S2048_n_01_n_n_01_1_11 x idx (ix1 r) = x (ix2 ⟨p, hp⟩ ⟨q, hq⟩) := by
  have e0 := gather_pairs_coord idx r (0 : Fin 2) (by decide) (by decide)
    (by funext b; refine Fin.ext ?_
        match b with
        | ⟨0, _⟩ => rfl
        | ⟨1, _⟩ => rfl) rfl p hp h0
  have e1 := gather_pairs_coord idx r (1 : Fin 2) (by decide) (by decide)
    (by funext b; refine Fin.ext ?_
        match b with
        | ⟨0, _⟩ => rfl
        | ⟨1, _⟩ => rfl) rfl q hq h1
  unfold Host.gather
  congr 1
  funext a
  refine Fin.ext ?_
  match a with
  | ⟨0, _⟩ => exact e0
  | ⟨1, _⟩ => exact e1

end Gather

/-! ### The scaled rows -/

/-- The first input's squared row sums. -/
theorem sq_sum0 (x0 : Arg) (r : Fin 2048) :
    val_main_v1 (F := Ideal) x0 (ix1 r) = ∑ k : Fin 1024, mat x0 r k * mat x0 r k := by
  rw [val_main_v1_apply, val_main_cst_apply, Ideal.ofBits_def, Ideal.ofBits_zero_f32, zero_add]
  refine Finset.sum_congr rfl fun k _ => ?_
  have e : idx_main_v1 (ix1 r) k = ix2 r k := by
    funext a
    match a with
    | ⟨0, _⟩ => rfl
    | ⟨1, _⟩ => rfl
  rw [e, val_main_v0_apply]
  rfl

/-- The first input's row lengths, kept away from zero. -/
theorem norm0 (x0 : Arg) (r : Fin 2048) (c : Fin 1) :
    val_main_v5 (F := Ideal) x0 (ix2 r c) = rowNorm (mat x0) r := by
  rw [val_main_v5_apply, val_main_v3_apply, val_main_v2_apply, val_main_v4_apply, val_main_cst_0_apply]
  have e : idx_main_v2 (ix2 r c) = ix1 r := by
    funext a
    match a with
    | ⟨0, _⟩ => rfl
  rw [e, sq_sum0]
  rfl

/-- The first input with every row scaled to unit length. -/
theorem rows0 (x0 : Arg) (r : Fin 2048) (k : Fin 1024) :
    val_main_v7 (F := Ideal) x0 (ix2 r k) = unit (mat x0) r k := by
  rw [val_main_v7_apply, val_main_v6_apply]
  have e : idx_main_v6 (ix2 r k) = ix2 r (0 : Fin 1) := by
    funext a
    match a with
    | ⟨0, _⟩ => rfl
    | ⟨1, _⟩ => rfl
  rw [e, norm0]
  rfl

/-- The second input's squared row sums. -/
theorem sq_sum1 (x1 : Arg) (r : Fin 2048) :
    val_main_v9 (F := Ideal) x1 (ix1 r) = ∑ k : Fin 1024, mat x1 r k * mat x1 r k := by
  rw [val_main_v9_apply, val_main_cst_1_apply, Ideal.ofBits_def, Ideal.ofBits_zero_f32, zero_add]
  refine Finset.sum_congr rfl fun k _ => ?_
  have e : idx_main_v9 (ix1 r) k = ix2 r k := by
    funext a
    match a with
    | ⟨0, _⟩ => rfl
    | ⟨1, _⟩ => rfl
  rw [e, val_main_v8_apply]
  rfl

/-- The second input's row lengths, kept away from zero. -/
theorem norm1 (x1 : Arg) (r : Fin 2048) (c : Fin 1) :
    val_main_v13 (F := Ideal) x1 (ix2 r c) = rowNorm (mat x1) r := by
  rw [val_main_v13_apply, val_main_v11_apply, val_main_v10_apply, val_main_v12_apply, val_main_cst_2_apply]
  have e : idx_main_v10 (ix2 r c) = ix1 r := by
    funext a
    match a with
    | ⟨0, _⟩ => rfl
  rw [e, sq_sum1]
  rfl

/-- The second input with every row scaled to unit length. -/
theorem rows1 (x1 : Arg) (r : Fin 2048) (k : Fin 1024) :
    val_main_v15 (F := Ideal) x1 (ix2 r k) = unit (mat x1) r k := by
  rw [val_main_v15_apply, val_main_v14_apply]
  have e : idx_main_v14 (ix2 r k) = ix2 r (0 : Fin 1) := by
    funext a
    match a with
    | ⟨0, _⟩ => rfl
    | ⟨1, _⟩ => rfl
  rw [e, norm1]
  rfl

/-! ### The stack and its similarity matrix -/

/-- The two scaled matrices stacked row-wise. -/
theorem stack_apply (x0 x1 : Arg) (i : Fin 4096) (k : Fin 1024) :
    val_main_v16 (F := Ideal) x0 x1 (ix2 i k) = stack (unit (mat x0)) (unit (mat x1)) i k := by
  unfold val_main_v16
  by_cases h : i.val < 2048
  · have hs : stack (unit (mat x0)) (unit (mat x1)) i k = unit (mat x0) ⟨i.val, h⟩ k := by
      unfold stack; rw [dif_pos h]
    rw [hs, ← rows0]
    refine concatenate_pair_apply_left (t := S4096x1024) (s₁ := S2048x1024) (s₂ := S2048x1024) _ _ _ _ (ix2 i k) rfl
      (ix2 (⟨i.val, h⟩ : Fin 2048) k) fun ax => ?_
    match ax with
    | ⟨0, _⟩ => rfl
    | ⟨1, _⟩ => rfl
  · have hs : stack (unit (mat x0)) (unit (mat x1)) i k = unit (mat x1) ⟨i.val - 2048, by omega⟩ k := by
      unfold stack; rw [dif_neg h]
    rw [hs, ← rows1]
    refine concatenate_pair_apply_right (t := S4096x1024) (s₁ := S2048x1024) (s₂ := S2048x1024) _ _ _ _ (ix2 i k) rfl rfl
      (ix2 (⟨i.val - 2048, by omega⟩ : Fin 2048) k) (fun ax hax => ?_) ?_
    · match ax with
      | ⟨0, _⟩ => exact absurd rfl hax
      | ⟨1, _⟩ => rfl
    · show i.val - 2048 + 2048 = i.val
      omega

/-- The similarity matrix of the stack, in one product. -/
theorem sim_apply (x0 x1 : Arg) (i j : Fin 4096) :
    val_main_v18 (F := Ideal) x0 x1 (ix2 i j) = simR (stack (unit (mat x0)) (unit (mat x1))) i j := by
  rw [val_main_v18_apply]
  unfold simR
  refine Finset.sum_congr rfl fun k _ => ?_
  rw [val_main_v17_apply]
  have e1 : lidx_main_v18 (ix2 i j) k = ix2 i k := by
    funext a
    match a with
    | ⟨0, _⟩ => rfl
    | ⟨1, _⟩ => rfl
  have e2 : idx_main_v17 (ridx_main_v18 (ix2 i j) k) = ix2 j k := by
    funext a
    match a with
    | ⟨0, _⟩ => rfl
    | ⟨1, _⟩ => rfl
  rw [e1, e2, stack_apply, stack_apply]

/-! ### The positives -/

/-- The first list of pairs: entry r's row word reads r. -/
theorem pairs0_fst (r : Fin 2048) :
    (val_main_call0_v16 (F := Ideal) (ix2 r (0 : Fin 2))).toInt.toNat = r.val := by
  have hcat : val_main_call0_v16 (F := Ideal) (ix2 r (0 : Fin 2))
      = val_main_call0_v14 (F := Ideal) (ix2 r (0 : Fin 1)) := by
    unfold val_main_call0_v16
    refine concatenate_pair_apply_left (t := S2048x2) (s₁ := S2048x1) (s₂ := S2048x1) _ _ _ _ (ix2 r (0 : Fin 2)) rfl
      (ix2 r (0 : Fin 1)) fun ax => ?_
    match ax with
    | ⟨0, _⟩ => rfl
    | ⟨1, _⟩ => rfl
  rw [hcat, val_main_call0_v14_apply, val_main_call0_v8_apply, val_main_call0_v5_apply, val_main_call0_v0_apply,
    val_main_call0_v4_apply, val_main_call0_c_0_apply]
  have hw := word_small (w := BitVec.ofNat 32 r.val) (toNat_ofNat_small (by omega)) (by omega)
  show (Scalar.select (IntOp.cmpi .slt (BitVec.ofNat 32 r.val) 0#32) _ (BitVec.ofNat 32 r.val)).toInt.toNat = r.val
  rw [hw.1, select_zero]
  exact hw.2

/-- The first list of pairs: entry r's column word reads r + 2048. -/
theorem pairs0_snd (r : Fin 2048) :
    (val_main_call0_v16 (F := Ideal) (ix2 r (1 : Fin 2))).toInt.toNat = r.val + 2048 := by
  have hcat : val_main_call0_v16 (F := Ideal) (ix2 r (1 : Fin 2))
      = val_main_call0_v15 (F := Ideal) (ix2 r (0 : Fin 1)) := by
    unfold val_main_call0_v16
    refine concatenate_pair_apply_right (t := S2048x2) (s₁ := S2048x1) (s₂ := S2048x1) _ _ _ _ (ix2 r (1 : Fin 2)) rfl rfl
      (ix2 r (0 : Fin 1)) (fun ax hax => ?_) rfl
    match ax with
    | ⟨0, _⟩ => rfl
    | ⟨1, _⟩ => exact absurd rfl hax
  rw [hcat, val_main_call0_v15_apply, val_main_call0_v13_apply, val_main_call0_v10_apply, val_main_call0_v3_apply,
    val_main_call0_v2_apply, val_main_call0_c_apply, val_main_call0_v1_apply, val_main_call0_v9_apply,
    val_main_call0_c_2_apply]
  have hw := word_small (toNat_add_small (a := 2048) (b := r.val) (by omega)) (by omega)
  show (Scalar.select (IntOp.cmpi .slt (IntOp.addi (BitVec.ofNat 32 2048) (BitVec.ofNat 32 r.val)) 0#32) _
    (IntOp.addi (BitVec.ofNat 32 2048) (BitVec.ofNat 32 r.val))).toInt.toNat = r.val + 2048
  rw [hw.1, select_zero, hw.2]
  omega

/-- The second list of pairs: entry r's row word reads r + 2048. -/
theorem pairs1_fst (r : Fin 2048) :
    (val_main_call1_v16 (F := Ideal) (ix2 r (0 : Fin 2))).toInt.toNat = r.val + 2048 := by
  have hcat : val_main_call1_v16 (F := Ideal) (ix2 r (0 : Fin 2))
      = val_main_call1_v14 (F := Ideal) (ix2 r (0 : Fin 1)) := by
    unfold val_main_call1_v16
    refine concatenate_pair_apply_left (t := S2048x2) (s₁ := S2048x1) (s₂ := S2048x1) _ _ _ _ (ix2 r (0 : Fin 2)) rfl
      (ix2 r (0 : Fin 1)) fun ax => ?_
    match ax with
    | ⟨0, _⟩ => rfl
    | ⟨1, _⟩ => rfl
  rw [hcat, val_main_call1_v14_apply, val_main_call1_v8_apply, val_main_call1_v5_apply, val_main_call1_v3_apply,
    val_main_call1_v2_apply, val_main_call1_c_apply, val_main_call1_v1_apply, val_main_call1_v4_apply,
    val_main_call1_c_0_apply]
  have hw := word_small (toNat_add_small (a := 2048) (b := r.val) (by omega)) (by omega)
  show (Scalar.select (IntOp.cmpi .slt (IntOp.addi (BitVec.ofNat 32 2048) (BitVec.ofNat 32 r.val)) 0#32) _
    (IntOp.addi (BitVec.ofNat 32 2048) (BitVec.ofNat 32 r.val))).toInt.toNat = r.val + 2048
  rw [hw.1, select_zero, hw.2]
  omega

/-- The second list of pairs: entry r's column word reads r. -/
theorem pairs1_snd (r : Fin 2048) :
    (val_main_call1_v16 (F := Ideal) (ix2 r (1 : Fin 2))).toInt.toNat = r.val := by
  have hcat : val_main_call1_v16 (F := Ideal) (ix2 r (1 : Fin 2))
      = val_main_call1_v15 (F := Ideal) (ix2 r (0 : Fin 1)) := by
    unfold val_main_call1_v16
    refine concatenate_pair_apply_right (t := S2048x2) (s₁ := S2048x1) (s₂ := S2048x1) _ _ _ _ (ix2 r (1 : Fin 2)) rfl rfl
      (ix2 r (0 : Fin 1)) (fun ax hax => ?_) rfl
    match ax with
    | ⟨0, _⟩ => rfl
    | ⟨1, _⟩ => exact absurd rfl hax
  rw [hcat, val_main_call1_v15_apply, val_main_call1_v13_apply, val_main_call1_v10_apply, val_main_call1_v0_apply,
    val_main_call1_v9_apply, val_main_call1_c_2_apply]
  have hw := word_small (w := BitVec.ofNat 32 r.val) (toNat_ofNat_small (by omega)) (by omega)
  show (Scalar.select (IntOp.cmpi .slt (BitVec.ofNat 32 r.val) 0#32) _ (BitVec.ofNat 32 r.val)).toInt.toNat = r.val
  rw [hw.1, select_zero]
  exact hw.2

/-- The diagonal 2048 places above the main one: entry r is the similarity of rows r and r + 2048. -/
theorem pos_upper (x0 x1 : Arg) (r : Fin 2048) :
    val_main_v19 (F := Ideal) x0 x1 (ix1 r)
      = val_main_v18 (F := Ideal) x0 x1 (ix2 (⟨r.val, by omega⟩ : Fin 4096) (⟨r.val + 2048, by omega⟩ : Fin 4096)) := by
  unfold val_main_v19
  exact gather_pairs_apply _ _ r r.val (r.val + 2048) (by omega) (by omega) (pairs0_fst r) (pairs0_snd r)

/-- The diagonal 2048 places below the main one: entry r is the similarity of rows r + 2048 and r. -/
theorem pos_lower (x0 x1 : Arg) (r : Fin 2048) :
    val_main_v20 (F := Ideal) x0 x1 (ix1 r)
      = val_main_v18 (F := Ideal) x0 x1 (ix2 (⟨r.val + 2048, by omega⟩ : Fin 4096) (⟨r.val, by omega⟩ : Fin 4096)) := by
  unfold val_main_v20
  exact gather_pairs_apply _ _ r (r.val + 2048) r.val (by omega) (by omega) (pairs1_fst r) (pairs1_snd r)

/-- The positives: row i's similarity with its partner row. -/
theorem pos_apply (x0 x1 : Arg) (i : Fin 4096) :
    val_main_v21 (F := Ideal) x0 x1 (ix1 i)
      = simR (stack (unit (mat x0)) (unit (mat x1))) i (partner i) := by
  unfold val_main_v21
  by_cases h : i.val < 2048
  · have hp : partner i = (⟨i.val + 2048, by omega⟩ : Fin 4096) :=
      Fin.ext (by show (i.val + 2048) % 4096 = i.val + 2048; omega)
    rw [hp, ← sim_apply]
    refine (concatenate_pair_apply_left (t := S4096) (s₁ := S2048) (s₂ := S2048) _ _ _ _ (ix1 i) rfl
      (ix1 (⟨i.val, h⟩ : Fin 2048)) fun ax => ?_).trans
      (pos_upper x0 x1 ⟨i.val, h⟩)
    match ax with
    | ⟨0, _⟩ => rfl
  · have hp : partner i = (⟨i.val - 2048, by omega⟩ : Fin 4096) :=
      Fin.ext (by show (i.val + 2048) % 4096 = i.val - 2048; omega)
    rw [hp, ← sim_apply]
    refine (concatenate_pair_apply_right (t := S4096) (s₁ := S2048) (s₂ := S2048) _ _ _ _ (ix1 i) rfl rfl
      (ix1 (⟨i.val - 2048, by omega⟩ : Fin 2048)) (fun ax hax => ?_) ?_).trans ((pos_lower x0 x1 ⟨i.val - 2048, by omega⟩).trans ?_)
    · match ax with
      | ⟨0, _⟩ => exact absurd rfl hax
    · show i.val - 2048 + 2048 = i.val
      omega
    · refine congrArg (val_main_v18 (F := Ideal) x0 x1) ?_
      funext a
      match a with
      | ⟨0, _⟩ => exact Fin.ext (by show i.val - 2048 + 2048 = i.val; omega)
      | ⟨1, _⟩ => rfl

/-! ### The denominators -/

/-- One minus the identity matrix. -/
theorem mask_apply (i j : Fin 4096) :
    val_main_v29 (F := Ideal) (ix2 i j) = oneW - (if i = j then (1 : EReal) else 0) := by
  rw [val_main_v29_apply, val_main_v28_apply, val_main_cst_3_apply, val_main_v27_apply, val_main_v26_apply,
    val_main_v25_apply, val_main_v22_apply, val_main_v24_apply, val_main_c_apply, val_main_v23_apply]
  have h := eq_word_apply (p := i.val) (q := j.val) (by omega) (by omega)
  have hc : (if i.val = j.val then (1 : EReal) else 0) = if i = j then (1 : EReal) else 0 := by
    by_cases e : i = j
    · subst e; rw [if_pos rfl, if_pos rfl]
    · rw [if_neg e, if_neg (fun h' => e (Fin.ext h'))]
  rw [← hc, ← h]
  rfl

/-- Row i's denominator: the exponentials of the scaled similarities, the diagonal multiplied away, summed. -/
theorem den_apply (x0 x1 : Arg) (i : Fin 4096) :
    val_main_v34 (F := Ideal) x0 x1 (ix1 i) = denR (stack (unit (mat x0)) (unit (mat x1))) i := by
  rw [val_main_v34_apply, val_main_cst_5_apply, Ideal.ofBits_def, Ideal.ofBits_zero_f32, zero_add]
  unfold denR
  refine Finset.sum_congr rfl fun j _ => ?_
  have e : idx_main_v34 (ix1 i) j = ix2 i j := by
    funext a
    match a with
    | ⟨0, _⟩ => rfl
    | ⟨1, _⟩ => rfl
  rw [e, val_main_v33_apply, mask_apply, val_main_v32_apply, val_main_v31_apply, sim_apply, val_main_v30_apply,
    val_main_cst_4_apply]
  rfl

/-! ### The loss -/

/-- The reference program's result is the closed form of the loss in one product. -/
theorem ref_loss (x0 x1 : (⟨S2048x1024, .f32⟩ : BufTy).Contents (Elt Ideal)) :
    Cert.ReferenceIdeal.Read.val_main_v41 (F := Ideal) x0 x1
      = fun _ => Cert.NtXent.lossR (Cert.NtXent.mat x0) (Cert.NtXent.mat x1) := by
  funext i
  rw [val_main_v41_apply, val_main_v40_apply, val_main_v39_apply, val_main_cst_7_apply, val_main_cst_8_apply,
    Ideal.ofBits_def, Ideal.ofBits_zero_f32, zero_add, sum_idx1]
  unfold lossR lossOf
  have hs : ∀ a : Fin 4096, val_main_v38 (F := Ideal) x0 x1 (ix1 a)
      = Ideal.div (simR (stack (unit (mat x0)) (unit (mat x1))) a (partner a)) halfW
        - Ideal.log (denR (stack (unit (mat x0)) (unit (mat x1))) a) := fun a => by
    rw [val_main_v38_apply, val_main_v36_apply, val_main_v37_apply, pos_apply, den_apply, val_main_v35_apply,
      val_main_cst_6_apply]
    rfl
  rw [Finset.sum_congr rfl fun a _ => hs a]
  rfl

end Cert.ReferenceIdeal.RefValue

end
-- ==== Proof.Bridge.lean ====
/-
  The two ways of computing the contrastive loss agree on real-valued inputs.

  On real inputs every row norm is a positive real, so every scaled entry is a real number z and its remainder
  z - z is exactly zero.  The two products with the remainder then vanish, the three-product similarity is the
  one-product similarity, dividing by the word 1/2 is multiplying by the word 2, multiplying by 1 - identity is
  dropping the diagonal term, and the four blocks of 8 x 128 columns added lane by lane run once over all 4096
  columns.  The partner similarity of a stacked row is the similarity of the two scaled rows of the same index.
-/
import proofs.«170399_j67310727463046_2_alg».proof.Proof.Spec

noncomputable section

open scoped BigOperators

namespace Cert.NtXent

open Idealize.ShloMosaic

/-! ### The words -/

/-- The word 1.0 is the number 1. -/
theorem oneW_eq : oneW = 1 := by
  simp [oneW, Ideal.ofBits, Ideal.ieee, -EReal.coe_mul]; norm_num

/-- The word 2.0 is the real 2. -/
theorem twoW_eq : twoW = ((2 : ℝ) : EReal) := by
  simp [twoW, Ideal.ofBits, Ideal.ieee, -EReal.coe_mul]; norm_num

/-- The word 0.5 is the real 1/2. -/
theorem halfW_eq : halfW = ((1 / 2 : ℝ) : EReal) := by
  simp [halfW, Ideal.ofBits, Ideal.ieee, -EReal.coe_mul]; norm_num

/-- The small word is a positive real. -/
theorem epsW_pos : ∃ e : ℝ, 0 < e ∧ epsW = (e : EReal) := by
  simp [epsW, Ideal.ofBits, Ideal.ieee, -EReal.coe_mul]

/-! ### Real entries stay real -/

/-- A finite sum of reals, read in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A row of reals has a positive real length: the larger of a square root (or of the bottom element, were the sum
    of squares negative) and a positive real. -/
theorem rowNorm_real (x : Mat 2048 1024) (h : ∀ r k, ∃ a : ℝ, x r k = (a : EReal)) (r : Fin 2048) :
    ∃ c : ℝ, c ≠ 0 ∧ rowNorm x r = (c : EReal) := by
  choose f hf using h
  obtain ⟨e, he, hE⟩ := epsW_pos
  have hs : ∑ k : Fin 1024, x r k * x r k = ((∑ k : Fin 1024, f r k * f r k : ℝ) : EReal) := by
    rw [← coe_sum]
    exact Finset.sum_congr rfl fun k _ => by rw [hf r k, EReal.coe_mul]
  unfold rowNorm
  rw [hs, Ideal.sqrt_coe, hE]
  split_ifs with hneg
  · exact ⟨e, he.ne', max_eq_right bot_le⟩
  · exact ⟨max (Real.sqrt (∑ k : Fin 1024, f r k * f r k)) e, (lt_max_of_lt_right he).ne',
      (EReal.coe_strictMono.monotone.map_max).symm⟩

/-- Scaling a real matrix to unit rows gives a real matrix. -/
theorem unit_real (x : Mat 2048 1024) (h : ∀ r k, ∃ a : ℝ, x r k = (a : EReal)) (r : Fin 2048) (k : Fin 1024) :
    ∃ a : ℝ, unit x r k = (a : EReal) := by
  obtain ⟨c, hc, hC⟩ := rowNorm_real x h r
  obtain ⟨a, ha⟩ := h r k
  refine ⟨a * (1 / c), ?_⟩
  unfold unit
  rw [hC, Ideal.div_coe hc, ha, EReal.coe_mul]

/-- A real number minus itself is zero, so a real matrix has no remainder. -/
theorem rest_zero (z : Mat 2048 1024) (h : ∀ r k, ∃ a : ℝ, z r k = (a : EReal)) (r : Fin 2048) (k : Fin 1024) :
    rest z r k = 0 := by
  obtain ⟨a, ha⟩ := h r k
  unfold rest
  rw [ha, ← EReal.coe_sub, sub_self, EReal.coe_zero]

/-- Two zero matrices stack to a zero matrix. -/
theorem stack_zero (a b : Mat 2048 1024) (ha : ∀ r k, a r k = 0) (hb : ∀ r k, b r k = 0) (i : Fin 4096)
    (k : Fin 1024) : stack a b i k = 0 := by
  unfold stack
  split_ifs
  · exact ha _ _
  · exact hb _ _

/-! ### The similarity, the scale and the mask -/

/-- With no remainder the three products are the one product. -/
theorem simK_eq_simR (zh zl : Mat 4096 1024) (hz : ∀ i k, zl i k = 0) (i j : Fin 4096) :
    simK zh zl i j = simR zh i j := by
  unfold simK simR
  simp only [hz, mul_zero, zero_mul, Finset.sum_const_zero, add_zero]

/-- Dividing by the word 1/2 is multiplying by the word 2, at the infinities too. -/
theorem div_halfW (y : EReal) : Ideal.div y halfW = y * twoW := by
  rw [halfW_eq, twoW_eq, Ideal.div_coe (by norm_num)]
  norm_num

/-- Multiplying by one minus the identity's entry drops the diagonal term and keeps the others. -/
theorem mask_mul (i j : Fin 4096) (e : EReal) :
    (oneW - (if i = j then (1 : EReal) else 0)) * e = if i = j then 0 else e := by
  rw [oneW_eq]
  split_ifs
  · rw [← EReal.coe_one, ← EReal.coe_sub, sub_self, EReal.coe_zero, zero_mul]
  · rw [sub_zero, one_mul]

/-- The multiplied-away denominator is the sum of the off-diagonal exponentials. -/
theorem denR_eq (Z : Mat 4096 1024) (i : Fin 4096) :
    denR Z i = ∑ j : Fin 4096, if i = j then 0 else Ideal.exp (simR Z i j * twoW) := by
  unfold denR
  exact Finset.sum_congr rfl fun j _ => by rw [mask_mul, div_halfW]

/-! ### The four blocks of 8 x 128 columns are all 4096 columns -/

/-- The accumulator after four blocks is the four lane shares added in order. -/
theorem accK_four (zh zl : Mat 4096 1024) (i : Fin 4096) (l : Fin 128) :
    accK zh zl i l 4 = ∑ jb : Fin 4, partK zh zl i jb l := by
  rw [Fin.sum_univ_four]
  simp only [accK, zero_add]
  rfl

/-- Block, group and lane number the 4096 columns once each. -/
def colEquiv : (Fin 4 × Fin 8 × Fin 128) ≃ Fin 4096 where
  toFun p := colOf p.1 p.2.1 p.2.2
  invFun j := (⟨j.val / 1024, by omega⟩, ⟨j.val % 1024 / 128, by omega⟩, ⟨j.val % 128, by omega⟩)
  left_inv := by
    rintro ⟨a, b, c⟩
    simp only [colOf, Prod.mk.injEq]
    refine ⟨Fin.ext ?_, Fin.ext ?_, Fin.ext ?_⟩ <;> simp only <;> omega
  right_inv := by
    intro j
    apply Fin.ext
    simp only [colOf]
    omega

/-- Summing lane by lane over the blocks and groups is summing over every column. -/
theorem sum_cols (f : Fin 4096 → EReal) :
    ∑ l : Fin 128, ∑ jb : Fin 4, ∑ g : Fin 8, f (colOf jb g l) = ∑ j : Fin 4096, f j := by
  rw [← Fintype.sum_equiv colEquiv (fun p => f (colOf p.1 p.2.1 p.2.2)) f (fun _ => rfl)]
  rw [Finset.sum_comm, Fintype.sum_prod_type]
  refine Finset.sum_congr rfl fun jb _ => ?_
  rw [Fintype.sum_prod_type, Finset.sum_comm]

/-- The lane-by-lane denominator is the sum of the masked exponentials over every column. -/
theorem denK_eq (zh zl : Mat 4096 1024) (i : Fin 4096) : denK zh zl i = ∑ j : Fin 4096, eK zh zl i j := by
  unfold denK
  simp only [accK_four, partK]
  exact sum_cols (eK zh zl i)

/-- With no remainder the two denominators agree. -/
theorem denK_eq_denR (zh zl : Mat 4096 1024) (hz : ∀ i k, zl i k = 0) (i : Fin 4096) :
    denK zh zl i = denR zh i := by
  rw [denK_eq, denR_eq]
  refine Finset.sum_congr rfl fun j _ => ?_
  unfold eK
  rw [simK_eq_simR zh zl hz]

/-! ### The partner -/

/-- In the upper half of the stack a row and its partner are the same row of the two matrices. -/
theorem stack_lo (a b : Mat 2048 1024) (i : Fin 4096) (h : i.val < 2048) (k : Fin 1024) :
    stack a b i k = a (halfRow i) k ∧ stack a b (partner i) k = b (halfRow i) k := by
  have hp : ¬ (partner i).val < 2048 := by simp only [partner]; omega
  constructor
  · simp only [stack, dif_pos h]
    congr 1; apply Fin.ext; simp only [halfRow]; omega
  · simp only [stack, dif_neg hp]
    congr 1; apply Fin.ext; simp only [halfRow, partner]; omega

/-- In the lower half the roles of the two matrices swap. -/
theorem stack_hi (a b : Mat 2048 1024) (i : Fin 4096) (h : ¬ i.val < 2048) (k : Fin 1024) :
    stack a b i k = b (halfRow i) k ∧ stack a b (partner i) k = a (halfRow i) k := by
  have hi := i.isLt
  have hp : (partner i).val < 2048 := by simp only [partner]; omega
  constructor
  · simp only [stack, dif_neg h]
    congr 1; apply Fin.ext; simp only [halfRow]; omega
  · simp only [stack, dif_pos hp]
    congr 1; apply Fin.ext; simp only [halfRow, partner]; omega

/-- A stacked row's similarity with its partner is the similarity of the two rows of its index. -/
theorem simR_partner (a b : Mat 2048 1024) (i : Fin 4096) :
    simR (stack a b) i (partner i) = ∑ k : Fin 1024, a (halfRow i) k * b (halfRow i) k := by
  unfold simR
  refine Finset.sum_congr rfl fun k _ => ?_
  by_cases h : i.val < 2048
  · rw [(stack_lo a b i h k).1, (stack_lo a b i h k).2]
  · rw [(stack_hi a b i h k).1, (stack_hi a b i h k).2, mul_comm]

/-! ### The two losses -/

/-- On real-valued inputs the three-product, lane-by-lane loss is the one-product loss: the scales, the positives and
    the denominators agree row by row. -/
theorem lossK_eq_lossR (x1 x2 : Mat 2048 1024)
    (h1 : ∀ r k, ∃ a : ℝ, x1 r k = (a : EReal)) (h2 : ∀ r k, ∃ a : ℝ, x2 r k = (a : EReal)) :
    lossK x1 x2 = lossR x1 x2 := by
  have hz : ∀ i k, stack (rest (unit x1)) (rest (unit x2)) i k = 0 :=
    stack_zero _ _ (rest_zero _ (unit_real x1 h1)) (rest_zero _ (unit_real x2 h2))
  unfold lossK lossR lossOf
  congr 2
  refine Finset.sum_congr rfl fun i _ => ?_
  beta_reduce
  unfold posK
  rw [div_halfW, simR_partner, denK_eq_denR _ _ hz]

end Cert.NtXent

end
-- ==== Proof.IdealValue.lean ====
/-
  The idealized kernel program's result is the loss in the three-product form, and that is the reference's.

  The later host operations compute, from the region's exit contents, minus the mean over the 4096 rows of
  2 * positive − log denominator.  The positives come from the two scaled matrices, which the region does not
  touch; the denominators are the region's output array, which holds for every row the 128 lanes of the
  accumulator summed after the four column blocks.  The arrays the region reads are the stacks of the scaled
  matrices' high parts and remainders.  Put together this is the loss in the three-product form, which equals the
  one-product form the reference computes because the inputs are real numbers.
-/
import proofs.«170399_j67310727463046_2_alg».proof.Proof.IdealFrameClaims
import proofs.«170399_j67310727463046_2_alg».proof.Proof.IdealDen
import proofs.«170399_j67310727463046_2_alg».proof.Proof.HostValue
import proofs.«170399_j67310727463046_2_alg».proof.Proof.RefValue
import proofs.«170399_j67310727463046_2_alg».proof.Proof.Bridge
import proofs.«170399_j67310727463046_2_alg».proof.Defs
import proofs.«170399_j67310727463046_2_alg».proof.Proof.Gen.Pre_finite_inputs

noncomputable section

namespace Cert.KernelIdeal.Result

open Cert.KernelIdeal Cert.KernelIdeal.Gen Cert.KernelIdeal.HandFrame Cert.KernelIdeal.HostValue Cert.NtXent
open Idealize.ShloMosaic Idealize.ShloMosaic.TcCoe Idealize.SL.Sem Idealize.ShloMosaic.ValueIdx

variable (m : (ℓ : Loc nD τ sig) → Buf (Elt Ideal) ℓ)

/-- The launch contents as a valuation. -/
abbrev W0 (c : Dev nD) : Valuation τ sig (Elt Ideal) := fun b => m (c, b)

theorem V0_eq (c : Dev nD) : V0 (F := Ideal) m c = StableHlo.after (hostOps0 (F := Ideal)) (W0 m c) := by
  unfold V0; simp only [List.flatten_cons, List.flatten_nil, List.append_nil]

/-- The first input matrix by coordinates. -/
abbrev x1 (c : Dev nD) : Mat 2048 1024 := mat (arg0 (W0 m c))
abbrev x2 (c : Dev nD) : Mat 2048 1024 := mat (arg1 (W0 m c))

theorem left_Wx (c : Dev nD) : left (Wx (F := Ideal) m c) = fun j => unit (x1 m c) (j 0) (j 1) := by
  show Wx m c (Proc.devRef .tc main_v7) = _
  rw [Wx_of_ne m c main_v7 (by decide), V0_eq]
  exact pre_v7 (W0 m c)

theorem right_Wx (c : Dev nD) : right (Wx (F := Ideal) m c) = fun j => unit (x2 m c) (j 0) (j 1) := by
  show Wx m c (Proc.devRef .tc main_v15) = _
  rw [Wx_of_ne m c main_v15 (by decide), V0_eq]
  exact pre_v15 (W0 m c)

theorem hi_V (c : Dev nD) : mat (V (F := Ideal) m c main_v24) = stack (unit (x1 m c)) (unit (x2 m c)) := by
  show mat (V0 m c (Proc.devRef .tc main_v24)) = _
  rw [V0_eq, pre_v24 (W0 m c)]
  rfl

theorem lo_V (c : Dev nD) : mat (V (F := Ideal) m c main_v25) = stack (rest (unit (x1 m c))) (rest (unit (x2 m c))) := by
  show mat (V0 m c (Proc.devRef .tc main_v25)) = _
  rw [V0_eq, pre_v25 (W0 m c)]
  rfl

theorem denom_Wx (c : Dev nD) : denom (Wx (F := Ideal) m c)
    = fun j => denK (stack (unit (x1 m c)) (unit (x2 m c))) (stack (rest (unit (x1 m c))) (rest (unit (x2 m c)))) (j 0) := by
  show Wx m c (Proc.devRef .tc main_v26) = _
  rw [Wx_v26, Cert.KernelIdeal.DenValue.den_value m c, hi_V, lo_V]

/-- The program's result, in the three-product form. -/
theorem result_eq (c : Dev nD) : (Wend (F := Ideal) m c (Proc.devRef .tc main_v37) : S_.Idx → EReal) = fun _ => lossK (x1 m c) (x2 m c) := by
  unfold Wend
  rw [tail_v37 (Wx m c), left_Wx, right_Wx, denom_Wx]
  rfl

end Cert.KernelIdeal.Result

end
-- ==== Proof.lean ====
/-
  Both programs compute the contrastive loss of two 2048 x 1024 matrices: rows scaled to unit length, the 4096 x 4096
  similarities of the stacked rows, for every row the sum of exp (similarity / temperature) over the other rows, and
  minus the mean of positive / temperature − log of that sum.  The kernel program forms the similarities inside a
  4 x 4 grid of 1024 x 1024 tiles from a high part and a remainder of every entry, accumulating each row's sum lane
  by lane across a grid row; the reference forms them in one product.  Over the extended reals the remainder of a
  real entry is exactly zero, the blocked sums are the plain sum, and the two ways of masking the diagonal and of
  scaling by the temperature agree, so the results are equal; the inputs are real by the precondition.

  The frames: each kernel program runs its host operations, enters the region (two windows on each of the two input
  arrays, sharing them by halves), runs the body at the sixteen points in three control cases, and runs the later
  host operations; nothing writes an argument.  The reference is a straight line of host operations.
-/
import proofs.«170399_j67310727463046_2_alg».proof.Defs
import proofs.«170399_j67310727463046_2_alg».proof.Proof.Gen.Kernel
import proofs.«170399_j67310727463046_2_alg».proof.Proof.Gen.KernelIdeal
import proofs.«170399_j67310727463046_2_alg».proof.Proof.Gen.ReferenceIdeal
import proofs.«170399_j67310727463046_2_alg».proof.Proof.Gen.ReferenceIdeal.Run
import proofs.«170399_j67310727463046_2_alg».proof.Proof.Gen.ReferenceIdeal.Read
import proofs.«170399_j67310727463046_2_alg».proof.Proof.Gen.Pre_finite_inputs
import proofs.«170399_j67310727463046_2_alg».proof.Proof.BitsFrameClaims
import proofs.«170399_j67310727463046_2_alg».proof.Proof.IdealFrameClaims
import proofs.«170399_j67310727463046_2_alg».proof.Proof.IdealValue
import Idealize.ShloMosaic.Adequacy
import Idealize.ShloMosaic.Init

noncomputable section

namespace Cert.Proof

open Idealize.ShloMosaic Idealize.ShloMosaic.TcCoe Idealize.SL.Sem Cert.NtXent

theorem frame_k : @Cert.frame_Kernel Cert.Kernel.Gen.facts Cert.Pre_finite_inputs.Gen.facts :=
  fun m ρ _ => Cert.Kernel.HandFrame.frame m ρ

theorem frame_ki : @Cert.frame_KernelIdeal Cert.KernelIdeal.Gen.facts Cert.Pre_finite_inputs.Gen.facts :=
  fun m ρ _ => Cert.KernelIdeal.HandFrame.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The two idealized programs, from memories agreeing on the arguments, end with the same loss. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.HandFrame.Wend m c (Proc.devRef .tc Cert.KernelIdeal.main_v37), Cert.KernelIdeal.HandFrame.run_value m ρ, ?_⟩
  refine (θ_run Cert.ReferenceIdeal.defs _ _).mono (fun _ h c => ⟨(h c).1.trans ?_, (h c).2⟩)
    (Cert.ReferenceIdeal.Value.run (F := Ideal) m' ρ')
  have hreal := Cert.KernelIdeal.HostValue.real_of_pre _ _ (hpre c)
  have hb := lossK_eq_lossR
    (mat (m ((c.tc : Thread Cert.KernelIdeal.nD Cert.KernelIdeal.τ).loc Cert.KernelIdeal.main_arg0)))
    (mat (m ((c.tc : Thread Cert.KernelIdeal.nD Cert.KernelIdeal.τ).loc Cert.KernelIdeal.main_arg1)))
    (fun r k => hreal.1 (ValueIdx.ix2 r k)) (fun r k => hreal.2 (ValueIdx.ix2 r k))
  rw [Cert.ReferenceIdeal.Read.val_main_v41_eq, Cert.ReferenceIdeal.RefValue.ref_loss, (hagree c).1, (hagree c).2, ← hb]
  exact (Cert.KernelIdeal.Result.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
